-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg17 : FVec F S128x1 .f32) (main_arg18 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg17
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg18
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg13 : FVec F S128x128 .f32) (main_arg14 : FVec F S128 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_v48 main_v49 main_v50

def fn_part1 {F : FTy → Type} [FloatOps F] (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_v33

def fn {F : FTy → Type} [FloatOps F] (main_arg0 : FVec F S50000x128 .f32) (main_arg1 : IVec S600000 32) (main_arg2 : IVec S600000 32) (main_arg3 : IVec S100000 32) (main_arg4 : IVec S100000 32) (main_arg5 : IVec S100000 32) (main_arg6 : IVec S100000 32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_v13 main_v16
-- ==== Kernel.lean ====
abbrev S50000x128 : Shape := ⟨2, ![50000, 128]⟩
abbrev S600000 : Shape := ⟨1, ![600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S100000x1 : Shape := ⟨2, ![100000, 1]⟩
abbrev S100000x128 : Shape := ⟨2, ![100000, 128]⟩
abbrev S1x1 : Shape := ⟨2, ![1, 1]⟩
abbrev S2000x128 : Shape := ⟨2, ![2000, 128]⟩
abbrev S2000x1 : Shape := ⟨2, ![2000, 1]⟩

abbrev nBuf : Space → Nat
  | .hbm => 103
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S100000, .i32⟩
  | .hbm, ⟨4, _⟩ => ⟨S100000, .i32⟩
  | .hbm, ⟨5, _⟩ => ⟨S100000, .i32⟩
  | .hbm, ⟨6, _⟩ => ⟨S100000, .i32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S100000, .i32⟩
  | .hbm, ⟨64, _⟩ => ⟨S100000, .i1⟩
  | .hbm, ⟨65, _⟩ => ⟨S_, .i32⟩
  | .hbm, ⟨66, _⟩ => ⟨S100000, .i32⟩
  | .hbm, ⟨67, _⟩ => ⟨S100000, .i32⟩
  | .hbm, ⟨68, _⟩ => ⟨S100000, .i32⟩
  | .hbm, ⟨69, _⟩ => ⟨S100000x1, .i32⟩
  | .hbm, ⟨70, _⟩ => ⟨S100000x128, .f32⟩
  | .hbm, ⟨71, _⟩ => ⟨S_, .i32⟩
  | .hbm, ⟨72, _⟩ => ⟨S100000, .i32⟩
  | .hbm, ⟨73, _⟩ => ⟨S100000, .i1⟩
  | .hbm, ⟨74, _⟩ => ⟨S_, .i32⟩
  | .hbm, ⟨75, _⟩ => ⟨S100000, .i32⟩
  | .hbm, ⟨76, _⟩ => ⟨S100000, .i32⟩
  | .hbm, ⟨77, _⟩ => ⟨S100000, .i32⟩
  | .hbm, ⟨78, _⟩ => ⟨S100000x1, .i32⟩
  | .hbm, ⟨79, _⟩ => ⟨S100000x128, .f32⟩
  | .hbm, ⟨80, _⟩ => ⟨S_, .i32⟩
  | .hbm, ⟨81, _⟩ => ⟨S100000, .i32⟩
  | .hbm, ⟨82, _⟩ => ⟨S100000, .i1⟩
  | .hbm, ⟨83, _⟩ => ⟨S_, .i32⟩
  | .hbm, ⟨84, _⟩ => ⟨S100000, .i32⟩
  | .hbm, ⟨85, _⟩ => ⟨S100000, .i32⟩
  | .hbm, ⟨86, _⟩ => ⟨S100000, .i32⟩
  | .hbm, ⟨87, _⟩ => ⟨S100000x1, .i32⟩
  | .hbm, ⟨88, _⟩ => ⟨S100000x128, .f32⟩
  | .hbm, ⟨89, _⟩ => ⟨S_, .i32⟩
  | .hbm, ⟨90, _⟩ => ⟨S100000, .i32⟩
  | .hbm, ⟨91, _⟩ => ⟨S100000, .i1⟩
  | .hbm, ⟨92, _⟩ => ⟨S_, .i32⟩
  | .hbm, ⟨93, _⟩ => ⟨S100000, .i32⟩
  | .hbm, ⟨94, _⟩ => ⟨S100000, .i32⟩
  | .hbm, ⟨95, _⟩ => ⟨S100000, .i32⟩
  | .hbm, ⟨96, _⟩ => ⟨S100000x1, .i32⟩
  | .hbm, ⟨97, _⟩ => ⟨S100000x128, .f32⟩
  | .hbm, ⟨98, _⟩ => ⟨S1x128, .f32⟩
  | .hbm, ⟨99, _⟩ => ⟨S1x128, .f32⟩
  | .hbm, ⟨100, _⟩ => ⟨S1x1, .f32⟩
  | .hbm, ⟨101, _⟩ => ⟨S100000x1, .f32⟩
  | .hbm, ⟨102, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S128x1, .f32⟩
  | .local _ .vmem, ⟨35, _⟩ => ⟨S1x1, .f32⟩
  | .local _ .vmem, ⟨36, _⟩ => ⟨S2000x1, .f32⟩
  | .local _ .vmem, ⟨37, _⟩ => ⟨S2000x1, .f32⟩
  | .local _ .vmem, ⟨38, _⟩ => ⟨S2000x1, .f32⟩
  | .local _ .vmem, ⟨39, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_3 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_c_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_7 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_c_9 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_10 : Ref sig .tc := ⟨.hbm, 71, rfl⟩
abbrev main_v40 : Ref sig .tc := ⟨.hbm, 72, rfl⟩
abbrev main_v41 : Ref sig .tc := ⟨.hbm, 73, rfl⟩
abbrev main_c_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_12 : Ref sig .tc := ⟨.hbm, 80, rfl⟩
abbrev main_v47 : Ref sig .tc := ⟨.hbm, 81, rfl⟩
abbrev main_v48 : Ref sig .tc := ⟨.hbm, 82, rfl⟩
abbrev main_c_13 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_14 : Ref sig .tc := ⟨.hbm, 89, rfl⟩
abbrev main_v54 : Ref sig .tc := ⟨.hbm, 90, rfl⟩
abbrev main_v55 : Ref sig .tc := ⟨.hbm, 91, rfl⟩
abbrev main_c_15 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64_0 : Ref sig .tc := ⟨.hbm, 101, rfl⟩
abbrev main_v64_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg10_1 : Ref sig .tc := ⟨.vmem, 37, rfl⟩
abbrev cc2_stg11_0 : Ref sig .tc := ⟨.vmem, 38, rfl⟩
abbrev cc2_stg11_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem10_1 : DmaSem sig := 37
abbrev cc2_sem11_0 : DmaSem sig := 38
abbrev cc2_sem11_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2000x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x1 : S_.BroadcastsInDim S50000x1 (![] : Fin 0 → Fin S50000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000 : S_.BroadcastsInDim S100000 (![] : Fin 0 → Fin S100000.rank)
  bcast_S100000_S100000x1_0 : S100000.BroadcastsInDim S100000x1 (![0] : Fin 1 → Fin S100000x1.rank)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  gather_S50000x128_S100000x1_S100000x128_1_0_n_n_0_1_1128_wf : GatherDims.WF S50000x128 S100000x1 S100000x128 [1] [0] [] [0] [] 1 ![1, 128]
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x1.size a ≤ S128x1.size a
  hwx2_8 : ∀ i : grid2.Coords, EltTy.bits .f32 = 32 ∨ (Rect.block (s := S128x1) S128x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x1.size a ≤ S100000x1.size a
  hwx2_10 : ∀ i : grid2.Coords, EltTy.bits .f32 = 32 ∨ (Rect.block (s := S100000x1) S2000x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x1.size a ≤ S100000x1.size a
  hwx2_11 : ∀ i : grid2.Coords, EltTy.bits .f32 = 32 ∨ (Rect.block (s := S100000x1) S2000x1.size (cc2_transform_11 i) (hinb2_11 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg17) S128x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v64_0) S2000x1.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v64_1) S2000x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S100000x1 : Shape := ⟨2, ![100000, 1]⟩
abbrev S100000x128 : Shape := ⟨2, ![100000, 128]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S100000, .i32⟩
  | 4 => ⟨S100000, .i32⟩
  | 5 => ⟨S100000, .i32⟩
  | 6 => ⟨S100000, .i32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x1, .f32⟩
  | 18 => ⟨S1, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S_, .f32⟩
  | 33 => ⟨S600000, .f32⟩
  | 34 => ⟨S_, .f32⟩
  | 35 => ⟨S50000, .f32⟩
  | 36 => ⟨S600000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S_, .f32⟩
  | 67 => ⟨S600000, .f32⟩
  | 68 => ⟨S_, .f32⟩
  | 69 => ⟨S50000, .f32⟩
  | 70 => ⟨S600000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S100000x128, .f32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x1, .f32⟩
  | 118 => ⟨S1x1, .f32⟩
  | 119 => ⟨S100000x1, .f32⟩
  | 120 => ⟨S100000x1, .f32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S50000x128, .f32⟩

abbrev hbmTy0_1 (i : Nat) : BufTy := match i % 128 with
  | 0 => ⟨S100000x1, .i32⟩
  | 1 => ⟨S100000x128, .f32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S100000x1, .f32⟩
  | 27 => ⟨S1x1, .f32⟩
  | 28 => ⟨S100000x1, .f32⟩
  | 29 => ⟨S100000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call0_cst : Ref sig .tc := ⟨.hbm, 50, rfl⟩
abbrev main_call0_v0 : Ref sig .tc := ⟨.hbm, 51, rfl⟩
abbrev main_v25 : Ref sig .tc := ⟨.hbm, 52, rfl⟩
abbrev main_c_4 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_c_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_12 : Ref sig .tc := ⟨.hbm, 93, rfl⟩
abbrev main_v58 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_call1_cst : Ref sig .tc := ⟨.hbm, 107, rfl⟩
abbrev main_call1_v0 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call2_cst : Ref sig .tc := ⟨.hbm, 114, rfl⟩
abbrev main_call2_v0 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_14 : Ref sig .tc := ⟨.hbm, 121, rfl⟩
abbrev main_v80 : Ref sig .tc := ⟨.hbm, 122, rfl⟩
abbrev main_v81 : Ref sig .tc := ⟨.hbm, 123, rfl⟩
abbrev main_c_15 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_c_16 : Ref sig .tc := ⟨.hbm, 130, rfl⟩
abbrev main_v87 : Ref sig .tc := ⟨.hbm, 131, rfl⟩
abbrev main_v88 : Ref sig .tc := ⟨.hbm, 132, rfl⟩
abbrev main_c_17 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_call3_cst : Ref sig .tc := ⟨.hbm, 144, rfl⟩
abbrev main_call3_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call4_cst : Ref sig .tc := ⟨.hbm, 151, rfl⟩
abbrev main_call4_v0 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S100000x1_S100000x128_1_0_n_n_0_1_1128_wf : GatherDims.WF S50000x128 S100000x1 S100000x128 [1] [0] [] [0] [] 1 ![1, 128]
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel program's run with its two results named.

  The program is three pipelined regions among stretches of host operations. Its run is the chain of those six segments
  from the launch memory; every weakly fair execution terminates, and in the final state every buffer that outlives the
  regions holds what the chain's last boundary says. Read at the two result buffers this gives the results' contents
  after the last region; read at the arguments, that they are unchanged.
-/
import proofs.«106459_j24257975287900_2_alg».proof.Proof.Gen.KernelIdeal.Frame

noncomputable section

open scoped BigOperators

set_option maxRecDepth 16384

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with each result buffer at the
    contents the chain's last boundary gives it and every argument as launched. -/
theorem run_named : θ_run defs (onTc (τ := τ) (main (F := F))) ⟨m, fun _ => 0, ρ⟩ (fun r => ∀ c : Dev nD,
      r.2.mem ((c.tc : Thread nD τ).loc main_v64_0) = W6 m ρ c (Proc.devRef .tc main_v64_0)
      ∧ r.2.mem ((c.tc : Thread nD τ).loc main_v64_1) = W6 m ρ c (Proc.devRef .tc main_v64_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v64_0 (by decide)),
       h c _ (mem_uc main_v64_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.Sage.KRun

end
-- ==== Proof.KWalk.lean ====
/-
  The argument arrays as the kernel program's segments find them.

  No host operation and no region of the kernel program writes an argument: a region reads an argument through an input
  window, and a host operation writes only its own result. So at every boundary between segments an argument's buffer
  holds what it held at launch.
-/
import proofs.«106459_j24257975287900_2_alg».proof.Proof.Gen.KernelIdeal.Frame

noncomputable section

open scoped BigOperators

set_option maxRecDepth 16384

namespace Cert.Sage.KWalk

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ) (ρ : Dev nD → PrngReg)

/-- A buffer no operation of a host stretch writes holds after the stretch what it held before: each operation's one
    written buffer is another one. -/
macro "not_written_by " h:ident : tactic => `(tactic|
  exact StableHlo.after_of_forall_not_mem _ _ (List.forall_iff_forall_mem.mp (by
    simp only [$h:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem W1_arg0 (c : Dev nD) : W1 m ρ c (Proc.devRef .tc main_arg0) = m ((c : Thread nD τ).loc main_arg0) := by
  refine Eq.trans ?_ (rfl : W0 m ρ c (Proc.devRef .tc main_arg0) = _)
  not_written_by hostOps0
theorem W1_arg1 (c : Dev nD) : W1 m ρ c (Proc.devRef .tc main_arg1) = m ((c : Thread nD τ).loc main_arg1) := by
  refine Eq.trans ?_ (rfl : W0 m ρ c (Proc.devRef .tc main_arg1) = _)
  not_written_by hostOps0
theorem W1_arg2 (c : Dev nD) : W1 m ρ c (Proc.devRef .tc main_arg2) = m ((c : Thread nD τ).loc main_arg2) := by
  refine Eq.trans ?_ (rfl : W0 m ρ c (Proc.devRef .tc main_arg2) = _)
  not_written_by hostOps0
theorem W1_arg3 (c : Dev nD) : W1 m ρ c (Proc.devRef .tc main_arg3) = m ((c : Thread nD τ).loc main_arg3) := by
  refine Eq.trans ?_ (rfl : W0 m ρ c (Proc.devRef .tc main_arg3) = _)
  not_written_by hostOps0
theorem W1_arg4 (c : Dev nD) : W1 m ρ c (Proc.devRef .tc main_arg4) = m ((c : Thread nD τ).loc main_arg4) := by
  refine Eq.trans ?_ (rfl : W0 m ρ c (Proc.devRef .tc main_arg4) = _)
  not_written_by hostOps0
theorem W1_arg5 (c : Dev nD) : W1 m ρ c (Proc.devRef .tc main_arg5) = m ((c : Thread nD τ).loc main_arg5) := by
  refine Eq.trans ?_ (rfl : W0 m ρ c (Proc.devRef .tc main_arg5) = _)
  not_written_by hostOps0
theorem W1_arg6 (c : Dev nD) : W1 m ρ c (Proc.devRef .tc main_arg6) = m ((c : Thread nD τ).loc main_arg6) := by
  refine Eq.trans ?_ (rfl : W0 m ρ c (Proc.devRef .tc main_arg6) = _)
  not_written_by hostOps0
theorem W1_arg7 (c : Dev nD) : W1 m ρ c (Proc.devRef .tc main_arg7) = m ((c : Thread nD τ).loc main_arg7) := by
  refine Eq.trans ?_ (rfl : W0 m ρ c (Proc.devRef .tc main_arg7) = _)
  not_written_by hostOps0
theorem W1_arg8 (c : Dev nD) : W1 m ρ c (Proc.devRef .tc main_arg8) = m ((c : Thread nD τ).loc main_arg8) := by
  refine Eq.trans ?_ (rfl : W0 m ρ c (Proc.devRef .tc main_arg8) = _)
  not_written_by hostOps0
theorem W1_arg10 (c : Dev nD) : W1 m ρ c (Proc.devRef .tc main_arg10) = m ((c : Thread nD τ).loc main_arg10) := by
  refine Eq.trans ?_ (rfl : W0 m ρ c (Proc.devRef .tc main_arg10) = _)
  not_written_by hostOps0
theorem W1_arg11 (c : Dev nD) : W1 m ρ c (Proc.devRef .tc main_arg11) = m ((c : Thread nD τ).loc main_arg11) := by
  refine Eq.trans ?_ (rfl : W0 m ρ c (Proc.devRef .tc main_arg11) = _)
  not_written_by hostOps0
theorem W1_arg12 (c : Dev nD) : W1 m ρ c (Proc.devRef .tc main_arg12) = m ((c : Thread nD τ).loc main_arg12) := by
  refine Eq.trans ?_ (rfl : W0 m ρ c (Proc.devRef .tc main_arg12) = _)
  not_written_by hostOps0
theorem W1_arg13 (c : Dev nD) : W1 m ρ c (Proc.devRef .tc main_arg13) = m ((c : Thread nD τ).loc main_arg13) := by
  refine Eq.trans ?_ (rfl : W0 m ρ c (Proc.devRef .tc main_arg13) = _)
  not_written_by hostOps0
theorem W1_arg14 (c : Dev nD) : W1 m ρ c (Proc.devRef .tc main_arg14) = m ((c : Thread nD τ).loc main_arg14) := by
  refine Eq.trans ?_ (rfl : W0 m ρ c (Proc.devRef .tc main_arg14) = _)
  not_written_by hostOps0
theorem W1_arg15 (c : Dev nD) : W1 m ρ c (Proc.devRef .tc main_arg15) = m ((c : Thread nD τ).loc main_arg15) := by
  refine Eq.trans ?_ (rfl : W0 m ρ c (Proc.devRef .tc main_arg15) = _)
  not_written_by hostOps0
theorem W1_arg16 (c : Dev nD) : W1 m ρ c (Proc.devRef .tc main_arg16) = m ((c : Thread nD τ).loc main_arg16) := by
  refine Eq.trans ?_ (rfl : W0 m ρ c (Proc.devRef .tc main_arg16) = _)
  not_written_by hostOps0
theorem W1_arg17 (c : Dev nD) : W1 m ρ c (Proc.devRef .tc main_arg17) = m ((c : Thread nD τ).loc main_arg17) := by
  refine Eq.trans ?_ (rfl : W0 m ρ c (Proc.devRef .tc main_arg17) = _)
  not_written_by hostOps0
theorem W1_arg18 (c : Dev nD) : W1 m ρ c (Proc.devRef .tc main_arg18) = m ((c : Thread nD τ).loc main_arg18) := by
  refine Eq.trans ?_ (rfl : W0 m ρ c (Proc.devRef .tc main_arg18) = _)
  not_written_by hostOps0
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W3_arg10 (c : Dev nD) : W3 m ρ c (Proc.devRef .tc main_arg10) = m ((c : Thread nD τ).loc main_arg10) := by
  refine Eq.trans ?_ (W2_arg10 m ρ c)
  not_written_by hostOps1
theorem W3_arg11 (c : Dev nD) : W3 m ρ c (Proc.devRef .tc main_arg11) = m ((c : Thread nD τ).loc main_arg11) := by
  refine Eq.trans ?_ (W2_arg11 m ρ c)
  not_written_by hostOps1
theorem W3_arg3 (c : Dev nD) : W3 m ρ c (Proc.devRef .tc main_arg3) = m ((c : Thread nD τ).loc main_arg3) := by
  refine Eq.trans ?_ (W2_arg3 m ρ c)
  not_written_by hostOps1
theorem W3_arg4 (c : Dev nD) : W3 m ρ c (Proc.devRef .tc main_arg4) = m ((c : Thread nD τ).loc main_arg4) := by
  refine Eq.trans ?_ (W2_arg4 m ρ c)
  not_written_by hostOps1
theorem W3_arg5 (c : Dev nD) : W3 m ρ c (Proc.devRef .tc main_arg5) = m ((c : Thread nD τ).loc main_arg5) := by
  refine Eq.trans ?_ (W2_arg5 m ρ c)
  not_written_by hostOps1
theorem W3_arg6 (c : Dev nD) : W3 m ρ c (Proc.devRef .tc main_arg6) = m ((c : Thread nD τ).loc main_arg6) := by
  refine Eq.trans ?_ (W2_arg6 m ρ c)
  not_written_by hostOps1
theorem W3_arg14 (c : Dev nD) : W3 m ρ c (Proc.devRef .tc main_arg14) = m ((c : Thread nD τ).loc main_arg14) := by
  refine Eq.trans ?_ (W2_arg14 m ρ c)
  not_written_by hostOps1
theorem W3_arg16 (c : Dev nD) : W3 m ρ c (Proc.devRef .tc main_arg16) = m ((c : Thread nD τ).loc main_arg16) := by
  refine Eq.trans ?_ (W2_arg16 m ρ c)
  not_written_by hostOps1
theorem W3_arg18 (c : Dev nD) : W3 m ρ c (Proc.devRef .tc main_arg18) = m ((c : Thread nD τ).loc main_arg18) := by
  refine Eq.trans ?_ (W2_arg18 m ρ c)
  not_written_by hostOps1
theorem W3_arg13 (c : Dev nD) : W3 m ρ c (Proc.devRef .tc main_arg13) = m ((c : Thread nD τ).loc main_arg13) := by
  refine Eq.trans ?_ (W2_arg13 m ρ c)
  not_written_by hostOps1
theorem W3_arg15 (c : Dev nD) : W3 m ρ c (Proc.devRef .tc main_arg15) = m ((c : Thread nD τ).loc main_arg15) := by
  refine Eq.trans ?_ (W2_arg15 m ρ c)
  not_written_by hostOps1
theorem W3_arg17 (c : Dev nD) : W3 m ρ c (Proc.devRef .tc main_arg17) = m ((c : Thread nD τ).loc main_arg17) := by
  refine Eq.trans ?_ (W2_arg17 m ρ c)
  not_written_by hostOps1
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W4_arg16 (c : Dev nD) : W4 m ρ c (Proc.devRef .tc main_arg16) = m ((c : Thread nD τ).loc main_arg16) :=
  (W4_of_ne m ρ c main_arg16 (by decide)).trans (W3_arg16 m ρ c)
theorem W4_arg18 (c : Dev nD) : W4 m ρ c (Proc.devRef .tc main_arg18) = m ((c : Thread nD τ).loc main_arg18) :=
  (W4_of_ne m ρ c main_arg18 (by decide)).trans (W3_arg18 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W4_arg17 (c : Dev nD) : W4 m ρ c (Proc.devRef .tc main_arg17) = m ((c : Thread nD τ).loc main_arg17) :=
  (W4_of_ne m ρ c main_arg17 (by decide)).trans (W3_arg17 m ρ c)
theorem W5_arg13 (c : Dev nD) : W5 m ρ c (Proc.devRef .tc main_arg13) = m ((c : Thread nD τ).loc main_arg13) := by
  refine Eq.trans ?_ (W4_arg13 m ρ c)
  not_written_by hostOps2
theorem W5_arg15 (c : Dev nD) : W5 m ρ c (Proc.devRef .tc main_arg15) = m ((c : Thread nD τ).loc main_arg15) := by
  refine Eq.trans ?_ (W4_arg15 m ρ c)
  not_written_by hostOps2
theorem W5_arg17 (c : Dev nD) : W5 m ρ c (Proc.devRef .tc main_arg17) = m ((c : Thread nD τ).loc main_arg17) := by
  refine Eq.trans ?_ (W4_arg17 m ρ c)
  not_written_by hostOps2

/-- The first layer's output is not written between the first region and the second. -/
theorem W3_v20 (c : Dev nD) : W3 m ρ c (Proc.devRef .tc main_v20) = W2 m ρ c (Proc.devRef .tc main_v20) := by
  not_written_by hostOps1

/-- The scales are written once, before the first region, and found unchanged by the second. -/
theorem W3_v8 (c : Dev nD) : W3 m ρ c (Proc.devRef .tc main_v8) = W1 m ρ c (Proc.devRef .tc main_v8) := by
  refine Eq.trans ?_ ((W2_arr m ρ c 2).trans (((dat0 (V1 m ρ) c).arrAt_in 2 rfl _).trans (A_eq0 (V1 m ρ) c 2)))
  not_written_by hostOps1

end Cert.Sage.KWalk

end
-- ==== Proof.Spec.lean ====
/-
  The two layers and the edge decoder, entry by entry, over the extended reals.

  A graph layer maps node features x (n rows of 128) and the summed neighbour features agg to
      x · Ws + (agg scaled row by row by dinv) · Wn + b,
  where row p of agg is multiplied by the one number dinv p (the reciprocal of the node's clamped in-degree) before the
  product with Wn. The decoder maps two gathered feature rows za, zb to
      relu (relu ((za ∘ zb) · W1 + b1) · W2 + b2) · W3 + b3,
  the product za ∘ zb taken entry by entry. Both are written here as sums over the 128 contracted columns, at one entry,
  so that a row block of a kernel and a whole host array are the same function read at different rows.

  The one algebraic fact of the comparison is here too: dividing by a clamped degree d = max (deg, 1) is multiplying by
  1 / d, on every extended real, because d is at least one and so is not zero.
-/
import Idealize.ShloMosaic.PureOps.Ideal.Laws
import Idealize.ShloMosaic.Lib.ValueIdx
import Idealize.ShloMosaic.Lib.IdealHost

noncomputable section

open scoped BigOperators

namespace Cert.Sage

open Idealize.ShloMosaic Idealize.ShloMosaic.ValueIdx

/-- The word of the float zero and of the float one, as the extended reals they denote. -/
abbrev zeroW : EReal := Ideal.ofBits .f32 0x00000000#32
abbrev oneW : EReal := Ideal.ofBits .f32 0x3F800000#32

/-- The rectifier: the larger of a number and zero. -/
def relu (v : EReal) : EReal := max v zeroW

/-- No activation: the second layer's output is used as it is. -/
def noAct (v : EReal) : EReal := v

/-- Entry (p, q) of a graph layer before its activation. -/
def sageAt {n : ℕ} (x agg : (⟨2, ![n, 128]⟩ : Shape).Idx → EReal) (dinv : Fin n → EReal)
    (Ws Wn : (⟨2, ![128, 128]⟩ : Shape).Idx → EReal) (b : Fin 128 → EReal) (p : Fin n) (q : Fin 128) : EReal :=
  (∑ k : Fin 128, x (ix2 p k) * Ws (ix2 k q)) + (∑ k : Fin 128, (agg (ix2 p k) * dinv p) * Wn (ix2 k q)) + b q

/-- Row p of the decoder's result (its one column). -/
def decAt {n : ℕ} (za zb : (⟨2, ![n, 128]⟩ : Shape).Idx → EReal)
    (W1 : (⟨2, ![128, 128]⟩ : Shape).Idx → EReal) (b1 : Fin 128 → EReal)
    (W2 : (⟨2, ![128, 128]⟩ : Shape).Idx → EReal) (b2 : Fin 128 → EReal)
    (W3 : (⟨2, ![128, 1]⟩ : Shape).Idx → EReal) (b3 : EReal) (p : Fin n) : EReal :=
  (∑ k : Fin 128, relu ((∑ j : Fin 128, relu ((∑ i : Fin 128, (za (ix2 p i) * zb (ix2 p i)) * W1 (ix2 i j)) + b1 j)
      * W2 (ix2 j k)) + b2 k) * W3 (ix2 k (0 : Fin 1))) + b3

/-- A layer's entry depends on its row of x, its row of agg, its scale, the two weight columns and the bias entry only. -/
theorem sageAt_congr {n n' : ℕ} (x agg : (⟨2, ![n, 128]⟩ : Shape).Idx → EReal) (dinv : Fin n → EReal)
    (Ws Wn : (⟨2, ![128, 128]⟩ : Shape).Idx → EReal) (b : Fin 128 → EReal) (p : Fin n) (q : Fin 128)
    (x' agg' : (⟨2, ![n', 128]⟩ : Shape).Idx → EReal) (dinv' : Fin n' → EReal)
    (Ws' Wn' : (⟨2, ![128, 128]⟩ : Shape).Idx → EReal) (b' : Fin 128 → EReal) (p' : Fin n') (q' : Fin 128)
    (hx : ∀ k, x (ix2 p k) = x' (ix2 p' k)) (ha : ∀ k, agg (ix2 p k) = agg' (ix2 p' k)) (hd : dinv p = dinv' p')
    (hs : ∀ k, Ws (ix2 k q) = Ws' (ix2 k q')) (hn : ∀ k, Wn (ix2 k q) = Wn' (ix2 k q')) (hb : b q = b' q') :
    sageAt x agg dinv Ws Wn b p q = sageAt x' agg' dinv' Ws' Wn' b' p' q' := by
  unfold sageAt
  simp only [hx, ha, hd, hs, hn, hb]

/-- The decoder's row depends on its rows of za and zb and on the entries of the weights and biases only. -/
theorem decAt_congr {n n' : ℕ} (za zb : (⟨2, ![n, 128]⟩ : Shape).Idx → EReal)
    (W1 : (⟨2, ![128, 128]⟩ : Shape).Idx → EReal) (b1 : Fin 128 → EReal)
    (W2 : (⟨2, ![128, 128]⟩ : Shape).Idx → EReal) (b2 : Fin 128 → EReal)
    (W3 : (⟨2, ![128, 1]⟩ : Shape).Idx → EReal) (b3 : EReal) (p : Fin n)
    (za' zb' : (⟨2, ![n', 128]⟩ : Shape).Idx → EReal)
    (W1' : (⟨2, ![128, 128]⟩ : Shape).Idx → EReal) (b1' : Fin 128 → EReal)
    (W2' : (⟨2, ![128, 128]⟩ : Shape).Idx → EReal) (b2' : Fin 128 → EReal)
    (W3' : (⟨2, ![128, 1]⟩ : Shape).Idx → EReal) (b3' : EReal) (p' : Fin n')
    (ha : ∀ k, za (ix2 p k) = za' (ix2 p' k)) (hb : ∀ k, zb (ix2 p k) = zb' (ix2 p' k))
    (h1 : ∀ i j, W1 (ix2 i j) = W1' (ix2 i j)) (hb1 : ∀ j, b1 j = b1' j)
    (h2 : ∀ i j, W2 (ix2 i j) = W2' (ix2 i j)) (hb2 : ∀ j, b2 j = b2' j)
    (h3 : ∀ k, W3 (ix2 k (0 : Fin 1)) = W3' (ix2 k (0 : Fin 1))) (hb3 : b3 = b3') :
    decAt za zb W1 b1 W2 b2 W3 b3 p = decAt za' zb' W1' b1' W2' b2' W3' b3' p' := by
  unfold decAt
  simp only [ha, hb, h1, hb1, h2, hb2, h3, hb3]

/-- A graph layer over whole arrays: entry j of the result, the scale of row p read from the [n, 1] column inv and the
    bias from the [1, 128] row b, with the activation act applied last. -/
def layerArr (act : EReal → EReal) {n : ℕ} (x agg : (⟨2, ![n, 128]⟩ : Shape).Idx → EReal)
    (inv : (⟨2, ![n, 1]⟩ : Shape).Idx → EReal) (Ws Wn : (⟨2, ![128, 128]⟩ : Shape).Idx → EReal)
    (b : (⟨2, ![1, 128]⟩ : Shape).Idx → EReal) : (⟨2, ![n, 128]⟩ : Shape).Idx → EReal :=
  fun j => act (sageAt x agg (fun r => inv (ix2 r (0 : Fin 1))) Ws Wn (fun c => b (ix2 (0 : Fin 1) c)) (j 0) (j 1))

/-- The decoder over whole arrays: row j 0 of its one column, the biases read from [1, 128] rows and a [1, 1] cell. -/
def decArr {n : ℕ} (za zb : (⟨2, ![n, 128]⟩ : Shape).Idx → EReal)
    (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal)
    (W3 : (⟨2, ![128, 1]⟩ : Shape).Idx → EReal) (b3 : (⟨2, ![1, 1]⟩ : Shape).Idx → EReal) :
    (⟨2, ![n, 1]⟩ : Shape).Idx → EReal :=
  fun j => decAt za zb W1 (fun c => b1 (ix2 (0 : Fin 1) c)) W2 (fun c => b2 (ix2 (0 : Fin 1) c)) W3
    (b3 (ix2 (0 : Fin 1) (0 : Fin 1))) (j 0)

/-- The float one is the number one. -/
theorem oneW_eq : oneW = 1 := Ideal.ofBits_one_f32

/-- A degree clamped below by one is not zero. -/
theorem clamp_ne_zero (d : EReal) : max d oneW ≠ 0 := by
  have h : (0 : EReal) < max d oneW := lt_of_lt_of_le (by rw [oneW_eq]; exact zero_lt_one) (le_max_right d oneW)
  exact h.ne'

/-- The reciprocal of a degree clamped below by one: the scale of a node's neighbour sum. -/
def recipClamp (d : EReal) : EReal := Ideal.div oneW (max d oneW)

/-- DIVIDING BY A CLAMPED DEGREE IS MULTIPLYING BY ITS RECIPROCAL, for every extended real numerator: the divisor is not
    zero, and off zero the quotient is the product with the inverse. -/
theorem div_clamp (a d : EReal) : Ideal.div a (max d oneW) = a * recipClamp d := by
  unfold recipClamp Ideal.div
  rw [if_neg (clamp_ne_zero d), if_neg (clamp_ne_zero d), oneW_eq, one_mul]

end Cert.Sage

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.SageBody.lean ====
/-
  What one grid point of a graph-layer kernel stores, entry by entry.

  The body loads a block of 5000 rows of x and of agg, the 5000 scales, the two weight matrices and the bias row; it
  scales agg row by row, takes the two products into zero accumulators (the roundings to sixteen bits on the way in
  are the identity over the extended reals), adds them and the bias row, and — in the first layer only — rectifies.
  So entry (p, q) of what it stores is the layer's entry of the blocks it loaded.
-/
import proofs.«106459_j24257975287900_2_alg».proof.Proof.Gen.KernelIdeal.Skeleton
import proofs.«106459_j24257975287900_2_alg».proof.Proof.Spec
import proofs.«106459_j24257975287900_2_alg».proof.Proof.LibMatmulPlain
import Idealize.ShloMosaic.Lib.Pipeline.Value
import Idealize.ShloMosaic.Lib.ValueLayout
import Idealize.ShloMosaic.Lib.ValueIdx

noncomputable section

open scoped BigOperators

namespace Cert.Sage

open Idealize.ShloMosaic Idealize.ShloMosaic.ValueIdx Cert.KernelIdeal Cert.KernelIdeal.Gen

/-- The printed dimension numbers of the layers' products are the plain ones. -/
theorem dot5000_plain : dot_S5000x128_S128x128_S5000x128_1_0_0_1_n_n = DotDims.plain 5000 128 128 := rfl

/-- An [a, 1] column broadcast to [a, b] reads, at (p, c), the column's entry in row p. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first layer's stored block: the rectified layer entry of the loaded blocks. -/
theorem k0_pay1_apply (v0 v1 : Vec Ideal S5000x128 .f32) (v3 : Vec Ideal S5000x1 .f32) (v9 v11 : Vec Ideal S128x128 .f32)
    (v16 : Vec Ideal S1x128 .f32) (p : Fin 5000) (q : Fin 128) :
    k0_pay1 v0 v1 v3 v9 v11 v16 (ix2 p q)
      = relu (sageAt v0 v1 (fun r => v3 (ix2 r (0 : Fin 1))) v9 v11 (fun c => v16 (ix2 (0 : Fin 1) c)) p q) := by
  unfold k0_pay1 relu sageAt
  simp only [shapeCast_self, dot5000_plain, matmul]
  rw [maximumf_apply, addf_apply, addf_apply, Cert.Lib.matmul_plain_zero_apply, Cert.Lib.matmul_plain_zero_apply,
    broadcastTo_1b_ab_apply, broadcast_apply]
  simp only [truncf_apply, mulf_apply, bcast_col]
  rfl

/-- The second layer's stored block: the layer entry of the loaded blocks (no activation). -/
theorem k1_pay1_apply (v0 v2 : Vec Ideal S5000x128 .f32) (v4 : Vec Ideal S5000x1 .f32) (v10 v12 : Vec Ideal S128x128 .f32)
    (v17 : Vec Ideal S1x128 .f32) (p : Fin 5000) (q : Fin 128) :
    k1_pay1 v0 v2 v4 v10 v12 v17 (ix2 p q)
      = noAct (sageAt v0 v2 (fun r => v4 (ix2 r (0 : Fin 1))) v10 v12 (fun c => v17 (ix2 (0 : Fin 1) c)) p q) := by
  unfold k1_pay1 noAct sageAt
  simp only [shapeCast_self, dot5000_plain, matmul]
  rw [addf_apply, addf_apply, Cert.Lib.matmul_plain_zero_apply, Cert.Lib.matmul_plain_zero_apply,
    broadcastTo_1b_ab_apply]
  simp only [truncf_apply, mulf_apply, bcast_col]

end Cert.Sage

end
-- ==== Proof.Region0.lean ====
/-
  Region 0: the layer's output array after the pipeline, as one function of the arrays the region finds.

  The grid has ten points; point t handles rows 5000·t … 5000·t + 4999. Its blocks of x, agg and the scales are those
  rows of their arrays, the weights and the bias row are whole, and what it writes back is that block of rows of the
  output. The ten blocks cover the 50000 rows, so the output array ends holding the layer of the arrays, entry by entry.
-/
import proofs.«106459_j24257975287900_2_alg».proof.Proof.Gen.KernelIdeal.Frame
import proofs.«106459_j24257975287900_2_alg».proof.Proof.SageBody
import Idealize.ShloMosaic.Lib.Pipeline.Value

noncomputable section

open scoped BigOperators

set_option maxRecDepth 16384

namespace Cert.Sage.R0

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the ten points: the row-blocked windows sit at block row t, column block 0; the weights
    and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 10 :=
  (by decide +kernel : ∀ t : Fin grid0.N, _)

/-- Every block row is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- WHAT POINT t WRITES BACK is block t of the layer of the arrays as the region finds them. -/
theorem flushed_eq (c : Dev nD) (t : Fin cfg0.N) :
    (dat0 V c).flushed 6 t = ((cfg0.win 6).blk t).view.read (Elt Ideal)
      (layerArr relu (V c main_arg0) (V c main_v18) (V c main_v8) (V c main_arg7) (V c main_arg8) (V c main_v19)) := by
  show (cfg0.win 6).cut (grid0.coords t) ((dat0 V c).after 6 t) = _
  rw [after0_6]
  unfold out0_6
  rw [View.canon_unit_zero zeros2]
  simp only [View.ld_unit_zero (S := S5000x128) zeros2, View.ld_unit_zero (S := S5000x1) zeros2,
    View.ld_unit_zero (S := S128x128) zeros2, View.ld_unit_zero (S := S1x128) zeros2]
  obtain ⟨e00, e01, e10, e11, e20, e21, e30, e31, e40, e41, e50, e51, e60, e61, _⟩ := idx_facts t
  funext j
  obtain ⟨p, q, rfl⟩ : ∃ (p : Fin 5000) (q : Fin 128), j = ix2 p q := ⟨j 0, j 1, eq_ix2 j⟩
  refine (k0_pay1_apply (iblk0 V c 0 t) (iblk0 V c 1 t) (iblk0 V c 2 t) (iblk0 V c 3 t) (iblk0 V c 4 t) (iblk0 V c 5 t) p q).trans ?_
  change _ = relu (sageAt (V c main_arg0) (V c main_v18) (fun r => V c main_v8 (ix2 r (0 : Fin 1))) (V c main_arg7) (V c main_arg8)
    (fun c' => V c main_v19 (ix2 (0 : Fin 1) c')) ((((cfg0.win 6).blk t).view.emb (ix2 p q)) 0) ((((cfg0.win 6).blk t).view.emb (ix2 p q)) 1))
  have hp : ((((cfg0.win 6).blk t).view.emb (ix2 p q)) 0).val = win0_6.index t (0 : Fin 2) * 5000 + 1 * p.val := rfl
  have hq : ((((cfg0.win 6).blk t).view.emb (ix2 p q)) 1).val = win0_6.index t (1 : Fin 2) * 128 + 1 * q.val := rfl
  refine congrArg relu (sageAt_congr _ _ _ _ _ _ _ _ _ _ _ _ _ _ _ _ ?_ ?_ ?_ ?_ ?_ ?_)
  · intro k
    show V c main_arg0 (((cfg0.win 0).blk t).view.emb (ix2 p k)) = _
    refine congrArg _ (funext fun a => Fin.ext ?_)
    match a with
    | ⟨0, _⟩ => show win0_0.index t (0 : Fin 2) * 5000 + 1 * p.val = _; rw [hp]; omega
    | ⟨1, _⟩ => show win0_0.index t (1 : Fin 2) * 128 + 1 * k.val = k.val; omega
  · intro k
    show V c main_v18 (((cfg0.win 1).blk t).view.emb (ix2 p k)) = _
    refine congrArg _ (funext fun a => Fin.ext ?_)
    match a with
    | ⟨0, _⟩ => show win0_1.index t (0 : Fin 2) * 5000 + 1 * p.val = _; rw [hp]; omega
    | ⟨1, _⟩ => show win0_1.index t (1 : Fin 2) * 128 + 1 * k.val = k.val; omega
  · show V c main_v8 (((cfg0.win 2).blk t).view.emb (ix2 p (0 : Fin 1))) = _
    refine congrArg _ (funext fun a => Fin.ext ?_)
    match a with
    | ⟨0, _⟩ => show win0_2.index t (0 : Fin 2) * 5000 + 1 * p.val = _; rw [hp]; omega
    | ⟨1, _⟩ => show win0_2.index t (1 : Fin 2) * 1 + 1 * 0 = 0; omega
  · intro k
    show V c main_arg7 (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = _; rw [hq]; omega
  · intro k
    show V c main_arg8 (((cfg0.win 4).blk t).view.emb (ix2 k q)) = _
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = _; rw [hq]; omega
  · show V c main_v19 (((cfg0.win 5).blk t).view.emb (ix2 (0 : Fin 1) q)) = _
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * q.val = _; rw [hq]; omega

/-- An index of the output array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Every index of the output array is in the block of the point its row falls to. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the pipeline: the layer of the arrays the region was entered with. -/
theorem final (c : Dev nD) : (dat0 V c).arrAt 6 cfg0.N
    = layerArr relu (V c main_arg0) (V c main_v18) (V c main_v8) (V c main_arg7) (V c main_arg8) (V c main_v19) :=
  (dat0 V c).arrAt_eq_of_cover 6 _ (fun t _ => flushed_eq V c t) (cover)

end Cert.Sage.R0

end
-- ==== Proof.Region1.lean ====
/-
  Region 1: the layer's output array after the pipeline, as one function of the arrays the region finds.

  The grid has ten points; point t handles rows 5000·t … 5000·t + 4999. Its blocks of x, agg and the scales are those
  rows of their arrays, the weights and the bias row are whole, and what it writes back is that block of rows of the
  output. The ten blocks cover the 50000 rows, so the output array ends holding the layer of the arrays, entry by entry.
-/
import proofs.«106459_j24257975287900_2_alg».proof.Proof.Gen.KernelIdeal.Frame
import proofs.«106459_j24257975287900_2_alg».proof.Proof.SageBody
import Idealize.ShloMosaic.Lib.Pipeline.Value

noncomputable section

open scoped BigOperators

set_option maxRecDepth 16384

namespace Cert.Sage.R1

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the ten points: the row-blocked windows sit at block row t, column block 0; the weights
    and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 10 :=
  (by decide +kernel : ∀ t : Fin grid1.N, _)

/-- Every block row is some point's. -/
theorem idx_onto : ∀ q0 : Fin 10, ∃ t : Fin cfg1.N, win1_6.index t = ![q0.val, 0] :=
  (by decide +kernel : ∀ q0 : Fin 10, ∃ t : Fin grid1.N, win1_6.index t = ![q0.val, 0])

/-- WHAT POINT t WRITES BACK is block t of the layer of the arrays as the region finds them. -/
theorem flushed_eq (c : Dev nD) (t : Fin cfg1.N) :
    (dat1 V c).flushed 6 t = ((cfg1.win 6).blk t).view.read (Elt Ideal)
      (layerArr noAct (V c main_v20) (V c main_v30) (V c main_v8) (V c main_arg10) (V c main_arg11) (V c main_v31)) := by
  show (cfg1.win 6).cut (grid1.coords t) ((dat1 V c).after 6 t) = _
  rw [after1_6]
  unfold out1_6
  rw [View.canon_unit_zero zeros2]
  simp only [View.ld_unit_zero (S := S5000x128) zeros2, View.ld_unit_zero (S := S5000x1) zeros2,
    View.ld_unit_zero (S := S128x128) zeros2, View.ld_unit_zero (S := S1x128) zeros2]
  obtain ⟨e00, e01, e10, e11, e20, e21, e30, e31, e40, e41, e50, e51, e60, e61, _⟩ := idx_facts t
  funext j
  obtain ⟨p, q, rfl⟩ : ∃ (p : Fin 5000) (q : Fin 128), j = ix2 p q := ⟨j 0, j 1, eq_ix2 j⟩
  refine (k1_pay1_apply (iblk1 V c 0 t) (iblk1 V c 1 t) (iblk1 V c 2 t) (iblk1 V c 3 t) (iblk1 V c 4 t) (iblk1 V c 5 t) p q).trans ?_
  change _ = noAct (sageAt (V c main_v20) (V c main_v30) (fun r => V c main_v8 (ix2 r (0 : Fin 1))) (V c main_arg10) (V c main_arg11)
    (fun c' => V c main_v31 (ix2 (0 : Fin 1) c')) ((((cfg1.win 6).blk t).view.emb (ix2 p q)) 0) ((((cfg1.win 6).blk t).view.emb (ix2 p q)) 1))
  have hp : ((((cfg1.win 6).blk t).view.emb (ix2 p q)) 0).val = win1_6.index t (0 : Fin 2) * 5000 + 1 * p.val := rfl
  have hq : ((((cfg1.win 6).blk t).view.emb (ix2 p q)) 1).val = win1_6.index t (1 : Fin 2) * 128 + 1 * q.val := rfl
  refine congrArg noAct (sageAt_congr _ _ _ _ _ _ _ _ _ _ _ _ _ _ _ _ ?_ ?_ ?_ ?_ ?_ ?_)
  · intro k
    show V c main_v20 (((cfg1.win 0).blk t).view.emb (ix2 p k)) = _
    refine congrArg _ (funext fun a => Fin.ext ?_)
    match a with
    | ⟨0, _⟩ => show win1_0.index t (0 : Fin 2) * 5000 + 1 * p.val = _; rw [hp]; omega
    | ⟨1, _⟩ => show win1_0.index t (1 : Fin 2) * 128 + 1 * k.val = k.val; omega
  · intro k
    show V c main_v30 (((cfg1.win 1).blk t).view.emb (ix2 p k)) = _
    refine congrArg _ (funext fun a => Fin.ext ?_)
    match a with
    | ⟨0, _⟩ => show win1_1.index t (0 : Fin 2) * 5000 + 1 * p.val = _; rw [hp]; omega
    | ⟨1, _⟩ => show win1_1.index t (1 : Fin 2) * 128 + 1 * k.val = k.val; omega
  · show V c main_v8 (((cfg1.win 2).blk t).view.emb (ix2 p (0 : Fin 1))) = _
    refine congrArg _ (funext fun a => Fin.ext ?_)
    match a with
    | ⟨0, _⟩ => show win1_2.index t (0 : Fin 2) * 5000 + 1 * p.val = _; rw [hp]; omega
    | ⟨1, _⟩ => show win1_2.index t (1 : Fin 2) * 1 + 1 * 0 = 0; omega
  · intro k
    show V c main_arg10 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = _; rw [hq]; omega
  · intro k
    show V c main_arg11 (((cfg1.win 4).blk t).view.emb (ix2 k q)) = _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = _; rw [hq]; omega
  · show V c main_v31 (((cfg1.win 5).blk t).view.emb (ix2 (0 : Fin 1) q)) = _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = _; rw [hq]; omega

/-- An index of the output array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- Every index of the output array is in the block of the point its row falls to. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the pipeline: the layer of the arrays the region was entered with. -/
theorem final (c : Dev nD) : (dat1 V c).arrAt 6 cfg1.N
    = layerArr noAct (V c main_v20) (V c main_v30) (V c main_v8) (V c main_arg10) (V c main_arg11) (V c main_v31) :=
  (dat1 V c).arrAt_eq_of_cover 6 _ (fun t _ => flushed_eq V c t) (cover)

end Cert.Sage.R1

end
-- ==== Proof.DecBody.lean ====
/-
  What one grid point of the decoder kernel stores into each of its two outputs, row by row.

  The body loads the three weight matrices and bias rows and, for each edge set, the blocks of 2000 gathered rows za and
  zb; it multiplies the two blocks entry by entry and runs the product through the three products with bias, rectifying
  after the first two (the roundings to sixteen bits on the way into a product are the identity over the extended
  reals). So row p of what it stores into an output is the decoder's row of the two blocks it loaded for that output.
-/
import proofs.«106459_j24257975287900_2_alg».proof.Proof.Gen.KernelIdeal.Skeleton
import proofs.«106459_j24257975287900_2_alg».proof.Proof.Spec
import proofs.«106459_j24257975287900_2_alg».proof.Proof.LibMatmulPlain
import Idealize.ShloMosaic.Lib.Pipeline.Value
import Idealize.ShloMosaic.Lib.ValueLayout
import Idealize.ShloMosaic.Lib.ValueIdx

noncomputable section

open scoped BigOperators

namespace Cert.Sage

open Idealize.ShloMosaic Idealize.ShloMosaic.ValueIdx Cert.KernelIdeal Cert.KernelIdeal.Gen

/-- The printed dimension numbers of the decoder's products are the plain ones. -/
theorem dot2000_plain : dot_S2000x128_S128x128_S2000x128_1_0_0_1_n_n = DotDims.plain 2000 128 128 := rfl
theorem dot2000x1_plain : dot_S2000x128_S128x1_S2000x1_1_0_0_1_n_n = DotDims.plain 2000 128 1 := rfl

/-- The first output's stored block (the positive edges): the decoder's row of the loaded blocks. -/
theorem k2_pay8_apply (v0 : Vec Ideal S128x128 .f32) (v2 : Vec Ideal S1x128 .f32) (v4 : Vec Ideal S128x128 .f32)
    (v6 : Vec Ideal S1x128 .f32) (v8 : Vec Ideal S128x1 .f32) (v10 : Vec Ideal S1x1 .f32) (v12 v14 : Vec Ideal S2000x128 .f32)
    (p : Fin 2000) (u : Fin 1) :
    k2_pay8 v0 v2 v4 v6 v8 v10 v12 v14 (ix2 p u)
      = decAt v12 v14 v0 (fun c => v2 (ix2 (0 : Fin 1) c)) v4 (fun c => v6 (ix2 (0 : Fin 1) c)) v8
          (v10 (ix2 (0 : Fin 1) (0 : Fin 1))) p := by
  obtain rfl : u = 0 := Subsingleton.elim u 0
  unfold k2_pay8 k2_pay2 k2_pay3 k2_pay4 k2_pay5 k2_pay6 k2_pay7 decAt relu
  simp only [shapeCast_self, dot2000_plain, dot2000x1_plain, matmul, addf_apply, maximumf_apply,
    Cert.Lib.matmul_plain_zero_apply, broadcastTo_1b_ab_apply, broadcast_apply, truncf_apply, mulf_apply, Ideal.ofBits_def]

/-- The second output's stored block (the negative edges): the same function of its own two blocks. -/
theorem k2_pay1_apply (v0 : Vec Ideal S128x128 .f32) (v2 : Vec Ideal S1x128 .f32) (v4 : Vec Ideal S128x128 .f32)
    (v6 : Vec Ideal S1x128 .f32) (v8 : Vec Ideal S128x1 .f32) (v10 : Vec Ideal S1x1 .f32) (v37 v39 : Vec Ideal S2000x128 .f32)
    (p : Fin 2000) (u : Fin 1) :
    k2_pay1 (k2_pay2 v0) (k2_pay3 v2) (k2_pay4 v4) (k2_pay5 v6) (k2_pay6 v8) (k2_pay7 v10) v37 v39 (ix2 p u)
      = decAt v37 v39 v0 (fun c => v2 (ix2 (0 : Fin 1) c)) v4 (fun c => v6 (ix2 (0 : Fin 1) c)) v8
          (v10 (ix2 (0 : Fin 1) (0 : Fin 1))) p := by
  obtain rfl : u = 0 := Subsingleton.elim u 0
  unfold k2_pay1 k2_pay2 k2_pay3 k2_pay4 k2_pay5 k2_pay6 k2_pay7 decAt relu
  simp only [shapeCast_self, dot2000_plain, dot2000x1_plain, matmul, addf_apply, maximumf_apply,
    Cert.Lib.matmul_plain_zero_apply, broadcastTo_1b_ab_apply, broadcast_apply, truncf_apply, mulf_apply, Ideal.ofBits_def]

end Cert.Sage

end
-- ==== Proof.Region2.lean ====
/-
  Region 2: the decoder's two output arrays after the pipeline, each as one function of the arrays the region finds.

  The grid has fifty points; point t handles rows 2000·t … 2000·t + 1999 of both edge sets. Its four blocks of gathered
  features are those rows of their arrays, the weights and biases are whole, and what it writes back into each output is
  that block of rows. The fifty blocks cover the 100000 rows, so each output array ends holding the decoder of its two
  gathered arrays, row by row.
-/
import proofs.«106459_j24257975287900_2_alg».proof.Proof.Gen.KernelIdeal.Frame
import proofs.«106459_j24257975287900_2_alg».proof.Proof.DecBody
import Idealize.ShloMosaic.Lib.Pipeline.Value

noncomputable section

open scoped BigOperators

set_option maxRecDepth 16384

namespace Cert.Sage.R2

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the fifty points: the row-blocked windows sit at block row t, column block 0; the
    weights and biases at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0
    ∧ win2_11.index t (0 : Fin 2) = t.val ∧ win2_11.index t (1 : Fin 2) = 0 ∧ t.val < 50 :=
  (by decide +kernel : ∀ t : Fin grid2.N, _)

/-- Every block row of each output is some point's. -/
theorem idx_onto_pos : ∀ q0 : Fin 50, ∃ t : Fin cfg2.N, win2_10.index t = ![q0.val, 0] :=
  (by decide +kernel : ∀ q0 : Fin 50, ∃ t : Fin grid2.N, win2_10.index t = ![q0.val, 0])
theorem idx_onto_neg : ∀ q0 : Fin 50, ∃ t : Fin cfg2.N, win2_11.index t = ![q0.val, 0] :=
  (by decide +kernel : ∀ q0 : Fin 50, ∃ t : Fin grid2.N, win2_11.index t = ![q0.val, 0])

/-- Row p of point t's block of window 0 is the row of its array that row p of the output block falls to. -/
theorem rows0_pos (c : Dev nD) (t : Fin cfg2.N) (p : Fin 2000) (u : Fin 1) (k : Fin 128) :
    iblk2 V c 0 t (ix2 p k) = V c main_v39 (ix2 ((((cfg2.win 10).blk t).view.emb (ix2 p u)) 0) k) := by
  obtain ⟨e00, e01, e10, e11, e20, e21, e30, e31, e40, e41, e50, e51, e60, e61, e70, e71, e80, e81, e90, e91, ea0, ea1, eb0, eb1, _⟩ := idx_facts t
  have hp : ((((cfg2.win 10).blk t).view.emb (ix2 p u)) 0).val = win2_10.index t (0 : Fin 2) * 2000 + 1 * p.val := rfl
  show V c main_v39 (((cfg2.win 0).blk t).view.emb (ix2 p k)) = _
  refine congrArg _ (funext fun a => Fin.ext ?_)
  match a with
  | ⟨0, _⟩ => show win2_0.index t (0 : Fin 2) * 2000 + 1 * p.val = _; rw [hp]; omega
  | ⟨1, _⟩ => show win2_0.index t (1 : Fin 2) * 128 + 1 * k.val = k.val; omega

/-- Row p of point t's block of window 1 is the row of its array that row p of the output block falls to. -/
theorem rows1_pos (c : Dev nD) (t : Fin cfg2.N) (p : Fin 2000) (u : Fin 1) (k : Fin 128) :
    iblk2 V c 1 t (ix2 p k) = V c main_v46 (ix2 ((((cfg2.win 10).blk t).view.emb (ix2 p u)) 0) k) := by
  obtain ⟨e00, e01, e10, e11, e20, e21, e30, e31, e40, e41, e50, e51, e60, e61, e70, e71, e80, e81, e90, e91, ea0, ea1, eb0, eb1, _⟩ := idx_facts t
  have hp : ((((cfg2.win 10).blk t).view.emb (ix2 p u)) 0).val = win2_10.index t (0 : Fin 2) * 2000 + 1 * p.val := rfl
  show V c main_v46 (((cfg2.win 1).blk t).view.emb (ix2 p k)) = _
  refine congrArg _ (funext fun a => Fin.ext ?_)
  match a with
  | ⟨0, _⟩ => show win2_1.index t (0 : Fin 2) * 2000 + 1 * p.val = _; rw [hp]; omega
  | ⟨1, _⟩ => show win2_1.index t (1 : Fin 2) * 128 + 1 * k.val = k.val; omega

/-- Row p of point t's block of window 2 is the row of its array that row p of the output block falls to. -/
theorem rows2_neg (c : Dev nD) (t : Fin cfg2.N) (p : Fin 2000) (u : Fin 1) (k : Fin 128) :
    iblk2 V c 2 t (ix2 p k) = V c main_v53 (ix2 ((((cfg2.win 11).blk t).view.emb (ix2 p u)) 0) k) := by
  obtain ⟨e00, e01, e10, e11, e20, e21, e30, e31, e40, e41, e50, e51, e60, e61, e70, e71, e80, e81, e90, e91, ea0, ea1, eb0, eb1, _⟩ := idx_facts t
  have hp : ((((cfg2.win 11).blk t).view.emb (ix2 p u)) 0).val = win2_11.index t (0 : Fin 2) * 2000 + 1 * p.val := rfl
  show V c main_v53 (((cfg2.win 2).blk t).view.emb (ix2 p k)) = _
  refine congrArg _ (funext fun a => Fin.ext ?_)
  match a with
  | ⟨0, _⟩ => show win2_2.index t (0 : Fin 2) * 2000 + 1 * p.val = _; rw [hp]; omega
  | ⟨1, _⟩ => show win2_2.index t (1 : Fin 2) * 128 + 1 * k.val = k.val; omega

/-- Row p of point t's block of window 3 is the row of its array that row p of the output block falls to. -/
theorem rows3_neg (c : Dev nD) (t : Fin cfg2.N) (p : Fin 2000) (u : Fin 1) (k : Fin 128) :
    iblk2 V c 3 t (ix2 p k) = V c main_v60 (ix2 ((((cfg2.win 11).blk t).view.emb (ix2 p u)) 0) k) := by
  obtain ⟨e00, e01, e10, e11, e20, e21, e30, e31, e40, e41, e50, e51, e60, e61, e70, e71, e80, e81, e90, e91, ea0, ea1, eb0, eb1, _⟩ := idx_facts t
  have hp : ((((cfg2.win 11).blk t).view.emb (ix2 p u)) 0).val = win2_11.index t (0 : Fin 2) * 2000 + 1 * p.val := rfl
  show V c main_v60 (((cfg2.win 3).blk t).view.emb (ix2 p k)) = _
  refine congrArg _ (funext fun a => Fin.ext ?_)
  match a with
  | ⟨0, _⟩ => show win2_3.index t (0 : Fin 2) * 2000 + 1 * p.val = _; rw [hp]; omega
  | ⟨1, _⟩ => show win2_3.index t (1 : Fin 2) * 128 + 1 * k.val = k.val; omega

/-- Window 4 (the first weight matrix) is whole at every point: its block reads its array. -/
theorem whole4 (c : Dev nD) (t : Fin cfg2.N) (i j : Fin 128) :
    iblk2 V c 4 t (ix2 i j) = V c main_arg13 (ix2 i j) := by
  obtain ⟨e00, e01, e10, e11, e20, e21, e30, e31, e40, e41, e50, e51, e60, e61, e70, e71, e80, e81, e90, e91, ea0, ea1, eb0, eb1, _⟩ := idx_facts t
  show V c main_arg13 (((cfg2.win 4).blk t).view.emb (ix2 i j)) = _
  refine congrArg _ (funext fun a => Fin.ext ?_)
  match a with
  | ⟨0, _⟩ => show win2_4.index t (0 : Fin 2) * 128 + 1 * i.val = i.val; omega
  | ⟨1, _⟩ => show win2_4.index t (1 : Fin 2) * 128 + 1 * j.val = j.val; omega

/-- Window 5 (the first bias row) is whole at every point: its block reads its array. -/
theorem whole5 (c : Dev nD) (t : Fin cfg2.N) (j : Fin 128) :
    iblk2 V c 5 t (ix2 (0 : Fin 1) j) = V c main_v61 (ix2 (0 : Fin 1) j) := by
  obtain ⟨e00, e01, e10, e11, e20, e21, e30, e31, e40, e41, e50, e51, e60, e61, e70, e71, e80, e81, e90, e91, ea0, ea1, eb0, eb1, _⟩ := idx_facts t
  show V c main_v61 (((cfg2.win 5).blk t).view.emb (ix2 (0 : Fin 1) j)) = _
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * j.val = j.val; omega

/-- Window 6 (the second weight matrix) is whole at every point: its block reads its array. -/
theorem whole6 (c : Dev nD) (t : Fin cfg2.N) (i j : Fin 128) :
    iblk2 V c 6 t (ix2 i j) = V c main_arg15 (ix2 i j) := by
  obtain ⟨e00, e01, e10, e11, e20, e21, e30, e31, e40, e41, e50, e51, e60, e61, e70, e71, e80, e81, e90, e91, ea0, ea1, eb0, eb1, _⟩ := idx_facts t
  show V c main_arg15 (((cfg2.win 6).blk t).view.emb (ix2 i j)) = _
  refine congrArg _ (funext fun a => Fin.ext ?_)
  match a with
  | ⟨0, _⟩ => show win2_6.index t (0 : Fin 2) * 128 + 1 * i.val = i.val; omega
  | ⟨1, _⟩ => show win2_6.index t (1 : Fin 2) * 128 + 1 * j.val = j.val; omega

/-- Window 7 (the second bias row) is whole at every point: its block reads its array. -/
theorem whole7 (c : Dev nD) (t : Fin cfg2.N) (j : Fin 128) :
    iblk2 V c 7 t (ix2 (0 : Fin 1) j) = V c main_v62 (ix2 (0 : Fin 1) j) := by
  obtain ⟨e00, e01, e10, e11, e20, e21, e30, e31, e40, e41, e50, e51, e60, e61, e70, e71, e80, e81, e90, e91, ea0, ea1, eb0, eb1, _⟩ := idx_facts t
  show V c main_v62 (((cfg2.win 7).blk t).view.emb (ix2 (0 : Fin 1) j)) = _
  refine congrArg _ (funext fun a => Fin.ext ?_)
  match a with
  | ⟨0, _⟩ => show win2_7.index t (0 : Fin 2) * 1 + 1 * 0 = 0; omega
  | ⟨1, _⟩ => show win2_7.index t (1 : Fin 2) * 128 + 1 * j.val = j.val; omega

/-- Window 8 (the last weight column) is whole at every point: its block reads its array. -/
theorem whole8 (c : Dev nD) (t : Fin cfg2.N) (k : Fin 128) :
    iblk2 V c 8 t (ix2 k (0 : Fin 1)) = V c main_arg17 (ix2 k (0 : Fin 1)) := by
  obtain ⟨e00, e01, e10, e11, e20, e21, e30, e31, e40, e41, e50, e51, e60, e61, e70, e71, e80, e81, e90, e91, ea0, ea1, eb0, eb1, _⟩ := idx_facts t
  show V c main_arg17 (((cfg2.win 8).blk t).view.emb (ix2 k (0 : Fin 1))) = _
  refine congrArg _ (funext fun a => Fin.ext ?_)
  match a with
  | ⟨0, _⟩ => show win2_8.index t (0 : Fin 2) * 128 + 1 * k.val = k.val; omega
  | ⟨1, _⟩ => show win2_8.index t (1 : Fin 2) * 1 + 1 * 0 = 0; omega

/-- Window 9 (the last bias) is whole at every point: its block reads its array. -/
theorem whole9 (c : Dev nD) (t : Fin cfg2.N)  :
    iblk2 V c 9 t (ix2 (0 : Fin 1) (0 : Fin 1)) = V c main_v63 (ix2 (0 : Fin 1) (0 : Fin 1)) := by
  obtain ⟨e00, e01, e10, e11, e20, e21, e30, e31, e40, e41, e50, e51, e60, e61, e70, e71, e80, e81, e90, e91, ea0, ea1, eb0, eb1, _⟩ := idx_facts t
  show V c main_v63 (((cfg2.win 9).blk t).view.emb (ix2 (0 : Fin 1) (0 : Fin 1))) = _
  refine congrArg _ (funext fun a => Fin.ext ?_)
  match a with
  | ⟨0, _⟩ => show win2_9.index t (0 : Fin 2) * 1 + 1 * 0 = 0; omega
  | ⟨1, _⟩ => show win2_9.index t (1 : Fin 2) * 1 + 1 * 0 = 0; omega

set_option maxHeartbeats 1000000 in
/-- WHAT POINT t WRITES BACK into output window 10 is block t of the decoder of the arrays as the region finds them. -/
theorem flushed_eq_pos (c : Dev nD) (t : Fin cfg2.N) :
    (dat2 V c).flushed 10 t = ((cfg2.win 10).blk t).view.read (Elt Ideal)
      (decArr (V c main_v39) (V c main_v46) (V c main_arg13) (V c main_v61) (V c main_arg15) (V c main_v62) (V c main_arg17) (V c main_v63)) := by
  show (cfg2.win 10).cut (grid2.coords t) ((dat2 V c).after 10 t) = _
  rw [after2_10]
  unfold out2_10
  rw [View.canon_unit_zero zeros2]
  simp only [View.ld_unit_zero (S := S2000x128) zeros2, View.ld_unit_zero (S := S128x128) zeros2,
    View.ld_unit_zero (S := S1x128) zeros2, View.ld_unit_zero (S := S128x1) zeros2, View.ld_unit_zero (S := S1x1) zeros2]
  funext j
  obtain ⟨p, u, rfl⟩ : ∃ (p : Fin 2000) (u : Fin 1), j = ix2 p u := ⟨j 0, j 1, eq_ix2 j⟩
  refine (k2_pay8_apply (iblk2 V c 4 t) (iblk2 V c 5 t) (iblk2 V c 6 t) (iblk2 V c 7 t) (iblk2 V c 8 t) (iblk2 V c 9 t) (iblk2 V c 0 t) (iblk2 V c 1 t) p u).trans ?_
  change _ = decAt (V c main_v39) (V c main_v46) (V c main_arg13) (fun c' => V c main_v61 (ix2 (0 : Fin 1) c')) (V c main_arg15)
    (fun c' => V c main_v62 (ix2 (0 : Fin 1) c')) (V c main_arg17) (V c main_v63 (ix2 (0 : Fin 1) (0 : Fin 1)))
    ((((cfg2.win 10).blk t).view.emb (ix2 p u)) 0)
  exact decAt_congr _ _ _ _ _ _ _ _ _ _ _ _ _ _ _ _ _ _ (fun k => rows0_pos V c t p u k) (fun k => rows1_pos V c t p u k)
    (fun i j => whole4 V c t i j) (fun j => whole5 V c t j) (fun i j => whole6 V c t i j) (fun j => whole7 V c t j)
    (fun k => whole8 V c t k) (whole9 V c t)

/-- An index of output array 10 is in point t's block iff each coordinate is in the block's range on its axis. -/
theorem mem_blk_pos (t : Fin cfg2.N) (i : S100000x1.Idx) :
    i ∈ ((cfg2.win 10).blk t).view.set ↔ ∀ a : Fin 2, win2_10.index t a * S2000x1.size a ≤ (i a).val ∧ (i a).val < win2_10.index t a * S2000x1.size a + S2000x1.size a := by
  show i ∈ ((View.whole main_v64_0).slice (win2_10.rect t)).set ↔ _
  rw [View.set_slice_whole, Rect.mem_set_unit]
  exact Iff.rfl

/-- Every index of output array 10 is in the block of the point its row falls to. -/
theorem cover_pos (i : S100000x1.Idx) : ∃ t : Fin cfg2.N, (cfg2.win 10).flush t = true ∧ i ∈ ((cfg2.win 10).blk t).view.set := by
  have hi0 : (i 0).val < 100000 := (i 0).isLt
  have hi1 : (i 1).val < 1 := (i 1).isLt
  obtain ⟨t, ht⟩ := idx_onto_pos ⟨(i 0).val / 2000, by omega⟩
  have q0 : win2_10.index t (0 : Fin 2) = (i 0).val / 2000 := congrFun ht 0
  have q1 : win2_10.index t (1 : Fin 2) = 0 := congrFun ht 1
  refine ⟨t, flush2_10 t, ?_⟩
  rw [mem_blk_pos]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 1 ≤ (i 1).val ∧ (i 1).val < win2_10.index t (1 : Fin 2) * 1 + 1; omega

/-- OUTPUT ARRAY 10 after the pipeline: the decoder of the arrays the region was entered with. -/
theorem final_pos (c : Dev nD) : (dat2 V c).arrAt 10 cfg2.N
    = decArr (V c main_v39) (V c main_v46) (V c main_arg13) (V c main_v61) (V c main_arg15) (V c main_v62) (V c main_arg17) (V c main_v63) :=
  (dat2 V c).arrAt_eq_of_cover 10 _ (fun t _ => flushed_eq_pos V c t) (cover_pos)

set_option maxHeartbeats 1000000 in
/-- WHAT POINT t WRITES BACK into output window 11 is block t of the decoder of the arrays as the region finds them. -/
theorem flushed_eq_neg (c : Dev nD) (t : Fin cfg2.N) :
    (dat2 V c).flushed 11 t = ((cfg2.win 11).blk t).view.read (Elt Ideal)
      (decArr (V c main_v53) (V c main_v60) (V c main_arg13) (V c main_v61) (V c main_arg15) (V c main_v62) (V c main_arg17) (V c main_v63)) := by
  show (cfg2.win 11).cut (grid2.coords t) ((dat2 V c).after 11 t) = _
  rw [after2_11]
  unfold out2_11
  rw [View.canon_unit_zero zeros2]
  simp only [View.ld_unit_zero (S := S2000x128) zeros2, View.ld_unit_zero (S := S128x128) zeros2,
    View.ld_unit_zero (S := S1x128) zeros2, View.ld_unit_zero (S := S128x1) zeros2, View.ld_unit_zero (S := S1x1) zeros2]
  funext j
  obtain ⟨p, u, rfl⟩ : ∃ (p : Fin 2000) (u : Fin 1), j = ix2 p u := ⟨j 0, j 1, eq_ix2 j⟩
  refine (k2_pay1_apply (iblk2 V c 4 t) (iblk2 V c 5 t) (iblk2 V c 6 t) (iblk2 V c 7 t) (iblk2 V c 8 t) (iblk2 V c 9 t) (iblk2 V c 2 t) (iblk2 V c 3 t) p u).trans ?_
  change _ = decAt (V c main_v53) (V c main_v60) (V c main_arg13) (fun c' => V c main_v61 (ix2 (0 : Fin 1) c')) (V c main_arg15)
    (fun c' => V c main_v62 (ix2 (0 : Fin 1) c')) (V c main_arg17) (V c main_v63 (ix2 (0 : Fin 1) (0 : Fin 1)))
    ((((cfg2.win 11).blk t).view.emb (ix2 p u)) 0)
  exact decAt_congr _ _ _ _ _ _ _ _ _ _ _ _ _ _ _ _ _ _ (fun k => rows2_neg V c t p u k) (fun k => rows3_neg V c t p u k)
    (fun i j => whole4 V c t i j) (fun j => whole5 V c t j) (fun i j => whole6 V c t i j) (fun j => whole7 V c t j)
    (fun k => whole8 V c t k) (whole9 V c t)

/-- An index of output array 11 is in point t's block iff each coordinate is in the block's range on its axis. -/
theorem mem_blk_neg (t : Fin cfg2.N) (i : S100000x1.Idx) :
    i ∈ ((cfg2.win 11).blk t).view.set ↔ ∀ a : Fin 2, win2_11.index t a * S2000x1.size a ≤ (i a).val ∧ (i a).val < win2_11.index t a * S2000x1.size a + S2000x1.size a := by
  show i ∈ ((View.whole main_v64_1).slice (win2_11.rect t)).set ↔ _
  rw [View.set_slice_whole, Rect.mem_set_unit]
  exact Iff.rfl

/-- Every index of output array 11 is in the block of the point its row falls to. -/
theorem cover_neg (i : S100000x1.Idx) : ∃ t : Fin cfg2.N, (cfg2.win 11).flush t = true ∧ i ∈ ((cfg2.win 11).blk t).view.set := by
  have hi0 : (i 0).val < 100000 := (i 0).isLt
  have hi1 : (i 1).val < 1 := (i 1).isLt
  obtain ⟨t, ht⟩ := idx_onto_neg ⟨(i 0).val / 2000, by omega⟩
  have q0 : win2_11.index t (0 : Fin 2) = (i 0).val / 2000 := congrFun ht 0
  have q1 : win2_11.index t (1 : Fin 2) = 0 := congrFun ht 1
  refine ⟨t, flush2_11 t, ?_⟩
  rw [mem_blk_neg]
  intro a
  match a with
  | ⟨0, _⟩ => show win2_11.index t (0 : Fin 2) * 2000 ≤ (i 0).val ∧ (i 0).val < win2_11.index t (0 : Fin 2) * 2000 + 2000; omega
  | ⟨1, _⟩ => show win2_11.index t (1 : Fin 2) * 1 ≤ (i 1).val ∧ (i 1).val < win2_11.index t (1 : Fin 2) * 1 + 1; omega

/-- OUTPUT ARRAY 11 after the pipeline: the decoder of the arrays the region was entered with. -/
theorem final_neg (c : Dev nD) : (dat2 V c).arrAt 11 cfg2.N
    = decArr (V c main_v53) (V c main_v60) (V c main_arg13) (V c main_v61) (V c main_arg15) (V c main_v62) (V c main_arg17) (V c main_v63) :=
  (dat2 V c).arrAt_eq_of_cover 11 _ (fun t _ => flushed_eq_neg V c t) (cover_neg)

end Cert.Sage.R2

end
-- ==== Proof.Model.lean ====
/-
  The whole computation as one function of the nineteen argument arrays, over the extended reals.

  Two graph layers and an edge decoder. A layer gathers the features of every edge's source node (an index below zero
  counted from the end, as array indexing does), sums them into the edge's destination node, scales each node's sum by
  the reciprocal of its in-degree clamped below by one, and combines the node's own features and that mean through two
  weight matrices and a bias; the first layer is rectified. The decoder gathers the second layer's features at the two
  ends of every candidate edge and scores the entry-by-entry product of the two rows.

  The host operations that gather and that sum by destination are kept as the operations they are: both programs apply
  the same ones to the same operands, so nothing is said here about which rows they read or add.
-/
import proofs.«106459_j24257975287900_2_alg».proof.ReferenceIdeal
import proofs.«106459_j24257975287900_2_alg».proof.Proof.Gen.ReferenceIdeal
import proofs.«106459_j24257975287900_2_alg».proof.Proof.Spec

noncomputable section

open scoped BigOperators

namespace Cert.Sage

open Idealize.ShloMosaic Idealize.ShloMosaic.ValueIdx Cert.ReferenceIdeal Cert.ReferenceIdeal.Gen

/-- Edge endpoints as gather indices: an endpoint below zero has 50000 added, and the vector becomes a column. -/
def edgeIdx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The same for the 100000 candidate edges of a decoder input. -/
def pairIdx (idx : IVec S100000 32) : IVec S100000x1 32 :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 50000#32))) idx)

/-- Neighbour sums: the rows of h at the edges' sources, added into the rows of a zero array at the edges' destinations. -/
def aggArr (h : FVec Ideal S50000x128 .f32) (src dst : IVec S600000 32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h (edgeIdx src))

/-- In-degrees: a one per edge added into a zero vector at the edge's destination. -/
def degArr (dst : IVec S600000 32) : FVec Ideal S50000 .f32 :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 dst)
    (broadcastInDim S600000 ![] bcast_S_S600000 (constant (F := Ideal) S_ .f32 0x3F800000#32))

/-- The rows of h at the given ends of the candidate edges. -/
def takeRows (h : FVec Ideal S50000x128 .f32) (idx : IVec S100000 32) : FVec Ideal S100000x128 .f32 :=
  Host.gather gather_S50000x128_S100000x1_S100000x128_1_0_n_n_0_1_1128 h (pairIdx idx)

/-- A graph layer over whole arrays, the scale of row r being one over its degree clamped below by one. -/
def layer (act : EReal → EReal) (x agg : FVec Ideal S50000x128 .f32) (deg : FVec Ideal S50000 .f32)
    (Ws Wn : FVec Ideal S128x128 .f32) (b : FVec Ideal S128 .f32) : FVec Ideal S50000x128 .f32 :=
  fun j => act (sageAt x agg (fun r => recipClamp (deg (ix1 r))) Ws Wn (fun c => b (ix1 c)) (j 0) (j 1))

/-- The decoder over whole arrays. -/
def dec (za zb : FVec Ideal S100000x128 .f32) (W1 : FVec Ideal S128x128 .f32) (b1 : FVec Ideal S128 .f32)
    (W2 : FVec Ideal S128x128 .f32) (b2 : FVec Ideal S128 .f32) (W3 : FVec Ideal S128x1 .f32) (b3 : FVec Ideal S1 .f32) :
    FVec Ideal S100000x1 .f32 :=
  fun j => decAt za zb W1 (fun c => b1 (ix1 c)) W2 (fun c => b2 (ix1 c)) W3 (b3 (ix1 (0 : Fin 1))) (j 0)

/-- The first layer's output. -/
def hidden1 (x : FVec Ideal S50000x128 .f32) (src dst : IVec S600000 32) (Ws Wn : FVec Ideal S128x128 .f32)
    (b : FVec Ideal S128 .f32) : FVec Ideal S50000x128 .f32 :=
  layer relu x (aggArr x src dst) (degArr dst) Ws Wn b

/-- The second layer's output. -/
def hidden2 (x : FVec Ideal S50000x128 .f32) (src dst : IVec S600000 32) (Ws1 Wn1 : FVec Ideal S128x128 .f32)
    (b1 : FVec Ideal S128 .f32) (Ws2 Wn2 : FVec Ideal S128x128 .f32) (b2 : FVec Ideal S128 .f32) : FVec Ideal S50000x128 .f32 :=
  layer noAct (hidden1 x src dst Ws1 Wn1 b1) (aggArr (hidden1 x src dst Ws1 Wn1 b1) src dst) (degArr dst) Ws2 Wn2 b2

/-- The scores of one set of candidate edges with ends es, ed, from the second layer's output h. -/
def score (h : FVec Ideal S50000x128 .f32) (es ed : IVec S100000 32) (W1 : FVec Ideal S128x128 .f32) (b1 : FVec Ideal S128 .f32)
    (W2 : FVec Ideal S128x128 .f32) (b2 : FVec Ideal S128 .f32) (W3 : FVec Ideal S128x1 .f32) (b3 : FVec Ideal S1 .f32) :
    FVec Ideal S100000x1 .f32 :=
  dec (takeRows h es) (takeRows h ed) W1 b1 W2 b2 W3 b3

end Cert.Sage

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KGlue.lean ====
/-
  The kernel program's two results are the model's scores of the argument arrays.

  Between the regions the host operations gather neighbour features, sum them by destination, count in-degrees and take
  the reciprocal of the clamped count, reshape the bias vectors into rows, and gather the decoder's inputs. Each region's
  output array is the layer (or the decoder) of the arrays the region finds. Followed from the launch memory through
  the three regions, the first region leaves the model's first layer, the second its second layer, and the third the two
  sets of scores.
-/
import proofs.«106459_j24257975287900_2_alg».proof.Proof.KWalk
import proofs.«106459_j24257975287900_2_alg».proof.Proof.Region0
import proofs.«106459_j24257975287900_2_alg».proof.Proof.Region1
import proofs.«106459_j24257975287900_2_alg».proof.Proof.Region2
import proofs.«106459_j24257975287900_2_alg».proof.Proof.Model
import proofs.«106459_j24257975287900_2_alg».proof.Proof.LibColumn
import Idealize.ShloMosaic.Lib.StableHlo.Run
import Idealize.ShloMosaic.Lib.ValueLayout

noncomputable section

open scoped BigOperators

set_option maxRecDepth 16384

namespace Cert.Sage.KGlue

open Idealize.ShloMosaic Idealize.ShloMosaic.TcCoe Idealize.ShloMosaic.ValueIdx Idealize.SL.Sem Idealize.ShloMosaic.StableHlo
open Cert.KernelIdeal Cert.KernelIdeal.Gen Cert.Sage Cert.Sage.KWalk

/-! ## Rows and columns against vectors -/

/-- A layer whose scales come as an [n, 1] column of reciprocals of clamped degrees and whose bias comes as a [1, 128] row
    is the model's layer of the degree vector and the bias vector. -/
theorem layerArr_eq_layer (act : EReal → EReal) (x agg : (⟨2, ![50000, 128]⟩ : Shape).Idx → EReal)
    (inv : (⟨2, ![50000, 1]⟩ : Shape).Idx → EReal) (Ws Wn : (⟨2, ![128, 128]⟩ : Shape).Idx → EReal)
    (b : (⟨2, ![1, 128]⟩ : Shape).Idx → EReal) (deg : (⟨1, ![50000]⟩ : Shape).Idx → EReal) (bv : (⟨1, ![128]⟩ : Shape).Idx → EReal)
    (hinv : ∀ r : Fin 50000, inv (ix2 r (0 : Fin 1)) = recipClamp (deg (ix1 r)))
    (hb : ∀ q : Fin 128, b (ix2 (0 : Fin 1) q) = bv (ix1 q)) :
    layerArr act x agg inv Ws Wn b = layer act x agg deg Ws Wn bv := by
  funext j
  unfold layerArr layer
  simp only [hinv, hb]

/-- The decoder whose biases come as rows and a cell is the model's decoder of the bias vectors. -/
theorem decArr_eq_dec (za zb : (⟨2, ![100000, 128]⟩ : Shape).Idx → EReal)
    (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal)
    (W3 : (⟨2, ![128, 1]⟩ : Shape).Idx → EReal) (b3 : (⟨2, ![1, 1]⟩ : Shape).Idx → EReal)
    (v1 v2 : (⟨1, ![128]⟩ : Shape).Idx → EReal) (v3 : (⟨1, ![1]⟩ : Shape).Idx → EReal)
    (h1 : ∀ q : Fin 128, b1 (ix2 (0 : Fin 1) q) = v1 (ix1 q)) (h2 : ∀ q : Fin 128, b2 (ix2 (0 : Fin 1) q) = v2 (ix1 q))
    (h3 : b3 (ix2 (0 : Fin 1) (0 : Fin 1)) = v3 (ix1 (0 : Fin 1))) :
    decArr za zb W1 b1 W2 b2 W3 b3 = dec za zb W1 v1 W2 v2 W3 v3 := by
  funext j
  unfold decArr dec
  simp only [h1, h2, h3]

/-! ## The host stretches, from any contents W -/

section Host
variable (W : Valuation τ sig (Elt Ideal))

set_option maxHeartbeats 4000000 in
/-- Before the first region: the neighbour sums of the node features. -/
theorem agg_after0 : StableHlo.after hostOps0 W (Proc.devRef .tc main_v18) = aggArr (W (Proc.devRef .tc main_arg0)) (W (Proc.devRef .tc main_arg1)) (W (Proc.devRef .tc main_arg2)) := by
  after_results
  rfl

set_option maxHeartbeats 4000000 in
/-- Before the first region: the scale of row r is the reciprocal of its clamped in-degree. -/
theorem inv_after0 (r : Fin 50000) :
    StableHlo.after hostOps0 W (Proc.devRef .tc main_v8) (ix2 r (0 : Fin 1)) = recipClamp (degArr (W (Proc.devRef .tc main_arg2)) (ix1 r)) := by
  have e : StableHlo.after hostOps0 W (Proc.devRef .tc main_v8)
      = Host.divf (F := Ideal) (broadcastInDim S50000x1 ![] bcast_S_S50000x1 (constant (F := Ideal) S_ .f32 0x3F800000#32))
          (maximumf (shapeCast S50000x1 (degArr (W (Proc.devRef .tc main_arg2))) shapeCasts_S50000_S50000x1)
            (broadcastInDim S50000x1 ![] bcast_S_S50000x1 (constant (F := Ideal) S_ .f32 0x3F800000#32))) := by
    after_results
    rfl
  rw [e]
  unfold recipClamp
  simp only [Host.divf, maximumf_apply, Ideal.hostDivf_def, Cert.Lib.shapeCast_a_a1_apply]
  rfl

set_option maxHeartbeats 4000000 in
/-- Before the first region: the first bias as a row. -/
theorem bias_after0 (q : Fin 128) :
    StableHlo.after hostOps0 W (Proc.devRef .tc main_v19) (ix2 (0 : Fin 1) q) = (W (Proc.devRef .tc main_arg9)) (ix1 q) := by
  have e : StableHlo.after hostOps0 W (Proc.devRef .tc main_v19) = shapeCast S1x128 (W (Proc.devRef .tc main_arg9)) shapeCasts_S128_S1x128 := by
    after_results
    rfl
  rw [e]
  exact shapeCast_a_1a_apply _ _ _ _

set_option maxHeartbeats 4000000 in
/-- Between the first two regions: the neighbour sums of the first layer's output. -/
theorem agg_after1 : StableHlo.after hostOps1 W (Proc.devRef .tc main_v30) = aggArr (W (Proc.devRef .tc main_v20)) (W (Proc.devRef .tc main_arg1)) (W (Proc.devRef .tc main_arg2)) := by
  after_results
  rfl

set_option maxHeartbeats 4000000 in
/-- Between the first two regions: the second bias as a row. -/
theorem bias_after1 (q : Fin 128) :
    StableHlo.after hostOps1 W (Proc.devRef .tc main_v31) (ix2 (0 : Fin 1) q) = (W (Proc.devRef .tc main_arg12)) (ix1 q) := by
  have e : StableHlo.after hostOps1 W (Proc.devRef .tc main_v31) = shapeCast S1x128 (W (Proc.devRef .tc main_arg12)) shapeCasts_S128_S1x128 := by
    after_results
    rfl
  rw [e]
  exact shapeCast_a_1a_apply _ _ _ _

set_option maxHeartbeats 4000000 in
/-- Before the last region: the second layer's rows at one end of the candidate edges. -/
theorem take_v39 : StableHlo.after hostOps2 W (Proc.devRef .tc main_v39) = takeRows (W (Proc.devRef .tc main_v32)) (W (Proc.devRef .tc main_arg3)) := by
  after_results
  rfl

set_option maxHeartbeats 4000000 in
/-- Before the last region: the second layer's rows at one end of the candidate edges. -/
theorem take_v46 : StableHlo.after hostOps2 W (Proc.devRef .tc main_v46) = takeRows (W (Proc.devRef .tc main_v32)) (W (Proc.devRef .tc main_arg4)) := by
  after_results
  rfl

set_option maxHeartbeats 4000000 in
/-- Before the last region: the second layer's rows at one end of the candidate edges. -/
theorem take_v53 : StableHlo.after hostOps2 W (Proc.devRef .tc main_v53) = takeRows (W (Proc.devRef .tc main_v32)) (W (Proc.devRef .tc main_arg5)) := by
  after_results
  rfl

set_option maxHeartbeats 4000000 in
/-- Before the last region: the second layer's rows at one end of the candidate edges. -/
theorem take_v60 : StableHlo.after hostOps2 W (Proc.devRef .tc main_v60) = takeRows (W (Proc.devRef .tc main_v32)) (W (Proc.devRef .tc main_arg6)) := by
  after_results
  rfl

set_option maxHeartbeats 4000000 in
/-- Before the last region: a decoder bias as a row. -/
theorem bias_v61 (q : Fin 128) :
    StableHlo.after hostOps2 W (Proc.devRef .tc main_v61) (ix2 (0 : Fin 1) q) = (W (Proc.devRef .tc main_arg14)) (ix1 q) := by
  have e : StableHlo.after hostOps2 W (Proc.devRef .tc main_v61) = shapeCast S1x128 (W (Proc.devRef .tc main_arg14)) shapeCasts_S128_S1x128 := by
    after_results
    rfl
  rw [e]
  exact shapeCast_a_1a_apply _ _ _ _

set_option maxHeartbeats 4000000 in
/-- Before the last region: a decoder bias as a row. -/
theorem bias_v62 (q : Fin 128) :
    StableHlo.after hostOps2 W (Proc.devRef .tc main_v62) (ix2 (0 : Fin 1) q) = (W (Proc.devRef .tc main_arg16)) (ix1 q) := by
  have e : StableHlo.after hostOps2 W (Proc.devRef .tc main_v62) = shapeCast S1x128 (W (Proc.devRef .tc main_arg16)) shapeCasts_S128_S1x128 := by
    after_results
    rfl
  rw [e]
  exact shapeCast_a_1a_apply _ _ _ _

set_option maxHeartbeats 4000000 in
/-- Before the last region: the last bias as a cell. -/
theorem bias_v63 :
    StableHlo.after hostOps2 W (Proc.devRef .tc main_v63) (ix2 (0 : Fin 1) (0 : Fin 1)) = (W (Proc.devRef .tc main_arg18)) (ix1 (0 : Fin 1)) := by
  have e : StableHlo.after hostOps2 W (Proc.devRef .tc main_v63) = shapeCast S1x1 (W (Proc.devRef .tc main_arg18)) shapeCasts_S1_S1x1 := by
    after_results
    rfl
  rw [e]
  exact shapeCast_a_1a_apply _ _ _ _

end Host

/-! ## The three regions in turn -/

variable (m : (ℓ : Loc nD τ sig) → Buf (Elt Ideal) ℓ) (ρ : Dev nD → PrngReg)

/-- AFTER THE FIRST REGION its output array holds the model's first layer. -/
theorem after_region0 (c : Dev nD) : W2 m ρ c (Proc.devRef .tc main_v20)
    = hidden1 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  refine (W2_arr m ρ c 6).trans ((R0.final (V1 m ρ) c).trans ?_)
  unfold hidden1
  have hx : V1 m ρ c main_arg0 = (m ((c : Thread nD τ).loc main_arg0)) := W1_arg0 m ρ c
  have hs : V1 m ρ c main_arg7 = (m ((c : Thread nD τ).loc main_arg7)) := W1_arg7 m ρ c
  have hn : V1 m ρ c main_arg8 = (m ((c : Thread nD τ).loc main_arg8)) := W1_arg8 m ρ c
  have ha : V1 m ρ c main_v18 = aggArr (m ((c : Thread nD τ).loc main_arg0)) (m ((c : Thread nD τ).loc main_arg1)) (m ((c : Thread nD τ).loc main_arg2)) := agg_after0 (W0 m ρ c)
  rw [hx, hs, hn, ha]
  exact layerArr_eq_layer _ _ _ _ _ _ _ _ _ (fun r => inv_after0 (W0 m ρ c) r) (fun q => bias_after0 (W0 m ρ c) q)

/-- AFTER THE SECOND REGION its output array holds the model's second layer. -/
theorem after_region1 (c : Dev nD) : W4 m ρ c (Proc.devRef .tc main_v32)
    = hidden2 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 6).trans ((R1.final (V3 m ρ) c).trans ?_)
  unfold hidden2
  have hx : V3 m ρ c main_v20 = hidden1 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) :=
    (W3_v20 m ρ c).trans (after_region0 m ρ c)
  have hs : V3 m ρ c main_arg10 = (m ((c : Thread nD τ).loc main_arg10)) := W3_arg10 m ρ c
  have hn : V3 m ρ c main_arg11 = (m ((c : Thread nD τ).loc main_arg11)) := W3_arg11 m ρ c
  have ha : V3 m ρ c main_v30 = aggArr (hidden1 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg1)) (m ((c : Thread nD τ).loc main_arg2)) := by
    refine (agg_after1 (W2 m ρ c)).trans ?_
    rw [after_region0 m ρ c, W2_arg1 m ρ c, W2_arg2 m ρ c]
  rw [hx, hs, hn, ha]
  refine layerArr_eq_layer _ _ _ _ _ _ _ _ _ (fun r => ?_) (fun q => ?_)
  · exact (congrFun (W3_v8 m ρ c) (ix2 r (0 : Fin 1))).trans (inv_after0 (W0 m ρ c) r)
  · refine (bias_after1 (W2 m ρ c) q).trans ?_
    rw [W2_arg12 m ρ c]

/-- AFTER THE LAST REGION the first result holds the model's scores of the positive candidate edges. -/
theorem result_pos (c : Dev nD) : W6 m ρ c (Proc.devRef .tc main_v64_0)
    = score (hidden2 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg3)) (m ((c : Thread nD τ).loc main_arg4))
        (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 10).trans ((R2.final_pos (V5 m ρ) c).trans ?_)
  unfold score
  have ha : V5 m ρ c main_v39 = takeRows (hidden2 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg3)) := by
    refine (take_v39 (W4 m ρ c)).trans ?_
    rw [after_region1 m ρ c, W4_arg3 m ρ c]
  have hb : V5 m ρ c main_v46 = takeRows (hidden2 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg4)) := by
    refine (take_v46 (W4 m ρ c)).trans ?_
    rw [after_region1 m ρ c, W4_arg4 m ρ c]
  have h1 : V5 m ρ c main_arg13 = (m ((c : Thread nD τ).loc main_arg13)) := W5_arg13 m ρ c
  have h2 : V5 m ρ c main_arg15 = (m ((c : Thread nD τ).loc main_arg15)) := W5_arg15 m ρ c
  have h3 : V5 m ρ c main_arg17 = (m ((c : Thread nD τ).loc main_arg17)) := W5_arg17 m ρ c
  rw [ha, hb, h1, h2, h3]
  refine decArr_eq_dec _ _ _ _ _ _ _ _ _ _ _ (fun q => ?_) (fun q => ?_) ?_
  · refine (bias_v61 (W4 m ρ c) q).trans ?_
    rw [W4_arg14 m ρ c]
  · refine (bias_v62 (W4 m ρ c) q).trans ?_
    rw [W4_arg16 m ρ c]
  · refine (bias_v63 (W4 m ρ c)).trans ?_
    rw [W4_arg18 m ρ c]

/-- AFTER THE LAST REGION the second result holds the model's scores of the negative candidate edges. -/
theorem result_neg (c : Dev nD) : W6 m ρ c (Proc.devRef .tc main_v64_1)
    = score (hidden2 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg5)) (m ((c : Thread nD τ).loc main_arg6))
        (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 11).trans ((R2.final_neg (V5 m ρ) c).trans ?_)
  unfold score
  have ha : V5 m ρ c main_v53 = takeRows (hidden2 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg5)) := by
    refine (take_v53 (W4 m ρ c)).trans ?_
    rw [after_region1 m ρ c, W4_arg5 m ρ c]
  have hb : V5 m ρ c main_v60 = takeRows (hidden2 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg6)) := by
    refine (take_v60 (W4 m ρ c)).trans ?_
    rw [after_region1 m ρ c, W4_arg6 m ρ c]
  have h1 : V5 m ρ c main_arg13 = (m ((c : Thread nD τ).loc main_arg13)) := W5_arg13 m ρ c
  have h2 : V5 m ρ c main_arg15 = (m ((c : Thread nD τ).loc main_arg15)) := W5_arg15 m ρ c
  have h3 : V5 m ρ c main_arg17 = (m ((c : Thread nD τ).loc main_arg17)) := W5_arg17 m ρ c
  rw [ha, hb, h1, h2, h3]
  refine decArr_eq_dec _ _ _ _ _ _ _ _ _ _ _ (fun q => ?_) (fun q => ?_) ?_
  · refine (bias_v61 (W4 m ρ c) q).trans ?_
    rw [W4_arg14 m ρ c]
  · refine (bias_v62 (W4 m ρ c) q).trans ?_
    rw [W4_arg16 m ρ c]
  · refine (bias_v63 (W4 m ρ c)).trans ?_
    rw [W4_arg18 m ρ c]

end Cert.Sage.KGlue

end
-- ==== Proof.RefValue.lean ====
/-
  The reference program's two results are the model's scores of the argument arrays.

  The reference is a list of host operations. Read one operation at a time at an index, a layer's entry is the sum over
  the contracted column of x times Ws, plus the sum of (agg divided by the clamped degree) times Wn, plus the bias, and
  the decoder's row is the nested sum the model writes. The one place where the reference's arithmetic differs from the
  model's is the division by the clamped degree, which the model writes as a product with the reciprocal.
-/
import proofs.«106459_j24257975287900_2_alg».proof.Proof.Gen.ReferenceIdeal.Read
import proofs.«106459_j24257975287900_2_alg».proof.Proof.Model

noncomputable section

open scoped BigOperators

set_option maxRecDepth 16384

namespace Cert.Sage.Ref

open Idealize.ShloMosaic Idealize.ShloMosaic.ValueIdx Cert.ReferenceIdeal Cert.ReferenceIdeal.Gen Cert.ReferenceIdeal.Read Cert.Sage

/-! ## The operations the model keeps whole -/

theorem agg1_eq (x0 : (⟨S50000x128, .f32⟩ : BufTy).Contents (Elt Ideal)) (x1 x2 : (⟨S600000, .i32⟩ : BufTy).Contents (Elt Ideal)) : val_main_v9 (F := Ideal) x0 x1 x2 = aggArr x0 x1 x2 := rfl
theorem deg1_eq (x2 : (⟨S600000, .i32⟩ : BufTy).Contents (Elt Ideal)) : val_main_v13 (F := Ideal) x2 = degArr x2 := rfl
theorem deg2_eq (x2 : (⟨S600000, .i32⟩ : BufTy).Contents (Elt Ideal)) : val_main_v39 (F := Ideal) x2 = degArr x2 := rfl
theorem agg2_eq (x0 : (⟨S50000x128, .f32⟩ : BufTy).Contents (Elt Ideal)) (x1 x2 : (⟨S600000, .i32⟩ : BufTy).Contents (Elt Ideal)) (x7 x8 : (⟨S128x128, .f32⟩ : BufTy).Contents (Elt Ideal)) (x9 : (⟨S128, .f32⟩ : BufTy).Contents (Elt Ideal)) :
    val_main_v35 (F := Ideal) x0 x1 x2 x7 x8 x9 = aggArr (val_main_v25 (F := Ideal) x0 x1 x2 x7 x8 x9) x1 x2 := rfl

/-! ## The composed index functions of the first layer, at coordinates -/

theorem l19 (p : Fin 50000) (q k : Fin 128) : lidx_main_v19 (ix2 p q) k = ix2 p k :=
  funext fun a => Fin.ext (by match a with | ⟨0, _⟩ => rfl | ⟨1, _⟩ => rfl)

theorem r19 (p : Fin 50000) (q k : Fin 128) : ridx_main_v19 (ix2 p q) k = ix2 k q :=
  funext fun a => Fin.ext (by match a with | ⟨0, _⟩ => rfl | ⟨1, _⟩ => rfl)

theorem l20 (p : Fin 50000) (q k : Fin 128) : lidx_main_v20 (ix2 p q) k = ix2 p k :=
  funext fun a => Fin.ext (by match a with | ⟨0, _⟩ => rfl | ⟨1, _⟩ => rfl)

theorem r20 (p : Fin 50000) (q k : Fin 128) : ridx_main_v20 (ix2 p q) k = ix2 k q :=
  funext fun a => Fin.ext (by match a with | ⟨0, _⟩ => rfl | ⟨1, _⟩ => rfl)

theorem d17 (p : Fin 50000) (k : Fin 128) : idx_main_v16 (idx_main_v17 (ix2 p k)) = ix1 p :=
  funext fun a => Fin.ext (by match a with | ⟨0, _⟩ => rfl)
theorem b23 (p : Fin 50000) (q : Fin 128) : idx_main_v22 (idx_main_v23 (ix2 p q)) = ix1 q :=
  funext fun a => Fin.ext (by match a with | ⟨0, _⟩ => rfl)

/-- THE FIRST LAYER of the reference is the model's. -/
theorem hidden1_eq (x0 : (⟨S50000x128, .f32⟩ : BufTy).Contents (Elt Ideal)) (x1 x2 : (⟨S600000, .i32⟩ : BufTy).Contents (Elt Ideal)) (x7 x8 : (⟨S128x128, .f32⟩ : BufTy).Contents (Elt Ideal)) (x9 : (⟨S128, .f32⟩ : BufTy).Contents (Elt Ideal)) :
    val_main_v25 (F := Ideal) x0 x1 x2 x7 x8 x9 = hidden1 x0 x1 x2 x7 x8 x9 := by
  funext i
  obtain ⟨p, q, rfl⟩ : ∃ (p : Fin 50000) (q : Fin 128), i = ix2 p q := ⟨i 0, i 1, eq_ix2 i⟩
  rw [val_main_v25_apply, val_main_v24_apply, val_main_v21_apply, val_main_v19_apply, val_main_v20_apply,
    val_main_v23_apply, val_main_v22_apply, val_main_call0_v0_apply, val_main_call0_cst_apply]
  simp only [val_main_v18_apply, val_main_v17_apply, val_main_v16_apply, val_main_v15_apply, val_main_v14_apply,
    val_main_cst_3_apply, l19, r19, l20, r20, d17, b23, agg1_eq, deg1_eq,
    Ideal.addf_def, Ideal.maximumf_def, Ideal.hostDivf_def, Ideal.ofBits_def, div_clamp]
  rfl

/-! ## The second layer -/

theorem l45 (p : Fin 50000) (q k : Fin 128) : lidx_main_v45 (ix2 p q) k = ix2 p k :=
  funext fun a => Fin.ext (by match a with | ⟨0, _⟩ => rfl | ⟨1, _⟩ => rfl)

theorem r45 (p : Fin 50000) (q k : Fin 128) : ridx_main_v45 (ix2 p q) k = ix2 k q :=
  funext fun a => Fin.ext (by match a with | ⟨0, _⟩ => rfl | ⟨1, _⟩ => rfl)

theorem l46 (p : Fin 50000) (q k : Fin 128) : lidx_main_v46 (ix2 p q) k = ix2 p k :=
  funext fun a => Fin.ext (by match a with | ⟨0, _⟩ => rfl | ⟨1, _⟩ => rfl)

theorem r46 (p : Fin 50000) (q k : Fin 128) : ridx_main_v46 (ix2 p q) k = ix2 k q :=
  funext fun a => Fin.ext (by match a with | ⟨0, _⟩ => rfl | ⟨1, _⟩ => rfl)

theorem d43 (p : Fin 50000) (k : Fin 128) : idx_main_v42 (idx_main_v43 (ix2 p k)) = ix1 p :=
  funext fun a => Fin.ext (by match a with | ⟨0, _⟩ => rfl)
theorem b49 (p : Fin 50000) (q : Fin 128) : idx_main_v48 (idx_main_v49 (ix2 p q)) = ix1 q :=
  funext fun a => Fin.ext (by match a with | ⟨0, _⟩ => rfl)

/-- THE SECOND LAYER of the reference is the model's. -/
theorem hidden2_eq (x0 : (⟨S50000x128, .f32⟩ : BufTy).Contents (Elt Ideal)) (x1 x2 : (⟨S600000, .i32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) :
    val_main_v50 (F := Ideal) x0 x1 x2 x7 x8 x9 x10 x11 x12 = hidden2 x0 x1 x2 x7 x8 x9 x10 x11 x12 := by
  funext i
  obtain ⟨p, q, rfl⟩ : ∃ (p : Fin 50000) (q : Fin 128), i = ix2 p q := ⟨i 0, i 1, eq_ix2 i⟩
  rw [val_main_v50_apply, val_main_v47_apply, val_main_v45_apply, val_main_v46_apply, val_main_v49_apply, val_main_v48_apply]
  simp only [val_main_v44_apply, val_main_v43_apply, val_main_v42_apply, val_main_v41_apply, val_main_v40_apply,
    val_main_cst_9_apply, l45, r45, l46, r46, d43, b49, agg2_eq, deg2_eq, hidden1_eq,
    Ideal.addf_def, Ideal.maximumf_def, Ideal.hostDivf_def, Ideal.ofBits_def, div_clamp]
  rfl

/-! ## The decoder on the pos candidate edges -/

theorem take_pos_a (x0 : (⟨S50000x128, .f32⟩ : BufTy).Contents (Elt Ideal)) (x1 x2 : (⟨S600000, .i32⟩ : BufTy).Contents (Elt Ideal)) (x3 : (⟨S100000, .i32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) :
    val_main_v57 (F := Ideal) x0 x1 x2 x3 x7 x8 x9 x10 x11 x12 = takeRows (val_main_v50 (F := Ideal) x0 x1 x2 x7 x8 x9 x10 x11 x12) x3 := rfl
theorem take_pos_b (x0 : (⟨S50000x128, .f32⟩ : BufTy).Contents (Elt Ideal)) (x1 x2 : (⟨S600000, .i32⟩ : BufTy).Contents (Elt Ideal)) (x4 : (⟨S100000, .i32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) :
    val_main_v64 (F := Ideal) x0 x1 x2 x4 x7 x8 x9 x10 x11 x12 = takeRows (val_main_v50 (F := Ideal) x0 x1 x2 x7 x8 x9 x10 x11 x12) x4 := rfl

theorem l3_pos (p : Fin 100000) (u : Fin 1) (k : Fin 128) : lidx_main_v76 (ix2 p u) k = ix2 p k :=
  funext fun a => Fin.ext (by match a with | ⟨0, _⟩ => rfl | ⟨1, _⟩ => rfl)

theorem r3_pos (p : Fin 100000) (u : Fin 1) (k : Fin 128) : ridx_main_v76 (ix2 p u) k = ix2 k u :=
  funext fun a => Fin.ext (by match a with | ⟨0, _⟩ => rfl | ⟨1, _⟩ => rfl)

theorem l2_pos (p : Fin 100000) (k j : Fin 128) : lidx_main_v71 (ix2 p k) j = ix2 p j :=
  funext fun a => Fin.ext (by match a with | ⟨0, _⟩ => rfl | ⟨1, _⟩ => rfl)

theorem r2_pos (p : Fin 100000) (k j : Fin 128) : ridx_main_v71 (ix2 p k) j = ix2 j k :=
  funext fun a => Fin.ext (by match a with | ⟨0, _⟩ => rfl | ⟨1, _⟩ => rfl)

theorem l1_pos (p : Fin 100000) (k j : Fin 128) : lidx_main_v66 (ix2 p k) j = ix2 p j :=
  funext fun a => Fin.ext (by match a with | ⟨0, _⟩ => rfl | ⟨1, _⟩ => rfl)

theorem r1_pos (p : Fin 100000) (k j : Fin 128) : ridx_main_v66 (ix2 p k) j = ix2 j k :=
  funext fun a => Fin.ext (by match a with | ⟨0, _⟩ => rfl | ⟨1, _⟩ => rfl)

theorem c3_pos (p : Fin 100000) (u : Fin 1) : idx_main_v77 (idx_main_v78 (ix2 p u)) = ix1 (0 : Fin 1) :=
  funext fun a => Fin.ext (by match a with | ⟨0, _⟩ => rfl)
theorem c2_pos (p : Fin 100000) (k : Fin 128) : idx_main_v72 (idx_main_v73 (ix2 p k)) = ix1 k :=
  funext fun a => Fin.ext (by match a with | ⟨0, _⟩ => rfl)
theorem c1_pos (p : Fin 100000) (k : Fin 128) : idx_main_v67 (idx_main_v68 (ix2 p k)) = ix1 k :=
  funext fun a => Fin.ext (by match a with | ⟨0, _⟩ => rfl)

set_option maxHeartbeats 1000000 in
/-- THE POS SCORES of the reference are the model's. -/
theorem score_pos_eq (x0 : (⟨S50000x128, .f32⟩ : BufTy).Contents (Elt Ideal)) (x1 x2 : (⟨S600000, .i32⟩ : BufTy).Contents (Elt Ideal)) (x3 x4 : (⟨S100000, .i32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal)) :
    val_main_v79 (F := Ideal) x0 x1 x2 x3 x4 x7 x8 x9 x10 x11 x12 x13 x14 x15 x16 x17 x18
      = score (hidden2 x0 x1 x2 x7 x8 x9 x10 x11 x12) x3 x4 x13 x14 x15 x16 x17 x18 := by
  funext i
  obtain ⟨p, u, rfl⟩ : ∃ (p : Fin 100000) (u : Fin 1), i = ix2 p u := ⟨i 0, i 1, eq_ix2 i⟩
  obtain rfl : u = 0 := Subsingleton.elim u 0
  rw [val_main_v79_apply, val_main_v76_apply, val_main_v78_apply, val_main_v77_apply]
  simp only [val_main_v75_apply, val_main_call2_v0_apply, val_main_call2_cst_apply, val_main_v74_apply, val_main_v71_apply, val_main_v73_apply, val_main_v72_apply,
    val_main_v70_apply, val_main_call1_v0_apply, val_main_call1_cst_apply, val_main_v69_apply, val_main_v66_apply, val_main_v68_apply, val_main_v67_apply, val_main_v65_apply,
    l3_pos, r3_pos, l2_pos, r2_pos, l1_pos, r1_pos, c3_pos, c2_pos, c1_pos, take_pos_a, take_pos_b, hidden2_eq,
    Ideal.addf_def, Ideal.mulf_def, Ideal.maximumf_def, Ideal.ofBits_def]
  rfl

/-! ## The decoder on the neg candidate edges -/

theorem take_neg_a (x0 : (⟨S50000x128, .f32⟩ : BufTy).Contents (Elt Ideal)) (x1 x2 : (⟨S600000, .i32⟩ : BufTy).Contents (Elt Ideal)) (x5 : (⟨S100000, .i32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) :
    val_main_v86 (F := Ideal) x0 x1 x2 x5 x7 x8 x9 x10 x11 x12 = takeRows (val_main_v50 (F := Ideal) x0 x1 x2 x7 x8 x9 x10 x11 x12) x5 := rfl
theorem take_neg_b (x0 : (⟨S50000x128, .f32⟩ : BufTy).Contents (Elt Ideal)) (x1 x2 : (⟨S600000, .i32⟩ : BufTy).Contents (Elt Ideal)) (x6 : (⟨S100000, .i32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) :
    val_main_v93 (F := Ideal) x0 x1 x2 x6 x7 x8 x9 x10 x11 x12 = takeRows (val_main_v50 (F := Ideal) x0 x1 x2 x7 x8 x9 x10 x11 x12) x6 := rfl

theorem l3_neg (p : Fin 100000) (u : Fin 1) (k : Fin 128) : lidx_main_v105 (ix2 p u) k = ix2 p k :=
  funext fun a => Fin.ext (by match a with | ⟨0, _⟩ => rfl | ⟨1, _⟩ => rfl)

theorem r3_neg (p : Fin 100000) (u : Fin 1) (k : Fin 128) : ridx_main_v105 (ix2 p u) k = ix2 k u :=
  funext fun a => Fin.ext (by match a with | ⟨0, _⟩ => rfl | ⟨1, _⟩ => rfl)

theorem l2_neg (p : Fin 100000) (k j : Fin 128) : lidx_main_v100 (ix2 p k) j = ix2 p j :=
  funext fun a => Fin.ext (by match a with | ⟨0, _⟩ => rfl | ⟨1, _⟩ => rfl)

theorem r2_neg (p : Fin 100000) (k j : Fin 128) : ridx_main_v100 (ix2 p k) j = ix2 j k :=
  funext fun a => Fin.ext (by match a with | ⟨0, _⟩ => rfl | ⟨1, _⟩ => rfl)

theorem l1_neg (p : Fin 100000) (k j : Fin 128) : lidx_main_v95 (ix2 p k) j = ix2 p j :=
  funext fun a => Fin.ext (by match a with | ⟨0, _⟩ => rfl | ⟨1, _⟩ => rfl)

theorem r1_neg (p : Fin 100000) (k j : Fin 128) : ridx_main_v95 (ix2 p k) j = ix2 j k :=
  funext fun a => Fin.ext (by match a with | ⟨0, _⟩ => rfl | ⟨1, _⟩ => rfl)

theorem c3_neg (p : Fin 100000) (u : Fin 1) : idx_main_v106 (idx_main_v107 (ix2 p u)) = ix1 (0 : Fin 1) :=
  funext fun a => Fin.ext (by match a with | ⟨0, _⟩ => rfl)
theorem c2_neg (p : Fin 100000) (k : Fin 128) : idx_main_v101 (idx_main_v102 (ix2 p k)) = ix1 k :=
  funext fun a => Fin.ext (by match a with | ⟨0, _⟩ => rfl)
theorem c1_neg (p : Fin 100000) (k : Fin 128) : idx_main_v96 (idx_main_v97 (ix2 p k)) = ix1 k :=
  funext fun a => Fin.ext (by match a with | ⟨0, _⟩ => rfl)

set_option maxHeartbeats 1000000 in
/-- THE NEG SCORES of the reference are the model's. -/
theorem score_neg_eq (x0 : (⟨S50000x128, .f32⟩ : BufTy).Contents (Elt Ideal)) (x1 x2 : (⟨S600000, .i32⟩ : BufTy).Contents (Elt Ideal)) (x5 x6 : (⟨S100000, .i32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal)) :
    val_main_v108 (F := Ideal) x0 x1 x2 x5 x6 x7 x8 x9 x10 x11 x12 x13 x14 x15 x16 x17 x18
      = score (hidden2 x0 x1 x2 x7 x8 x9 x10 x11 x12) x5 x6 x13 x14 x15 x16 x17 x18 := by
  funext i
  obtain ⟨p, u, rfl⟩ : ∃ (p : Fin 100000) (u : Fin 1), i = ix2 p u := ⟨i 0, i 1, eq_ix2 i⟩
  obtain rfl : u = 0 := Subsingleton.elim u 0
  rw [val_main_v108_apply, val_main_v105_apply, val_main_v107_apply, val_main_v106_apply]
  simp only [val_main_v104_apply, val_main_call4_v0_apply, val_main_call4_cst_apply, val_main_v103_apply, val_main_v100_apply, val_main_v102_apply, val_main_v101_apply,
    val_main_v99_apply, val_main_call3_v0_apply, val_main_call3_cst_apply, val_main_v98_apply, val_main_v95_apply, val_main_v97_apply, val_main_v96_apply, val_main_v94_apply,
    l3_neg, r3_neg, l2_neg, r2_neg, l1_neg, r1_neg, c3_neg, c2_neg, c1_neg, take_neg_a, take_neg_b, hidden2_eq,
    Ideal.addf_def, Ideal.mulf_def, Ideal.maximumf_def, Ideal.ofBits_def]
  rfl

end Cert.Sage.Ref

end
-- ==== Proof.lean ====
/-
  A two-layer graph network with an edge decoder, as pipelined kernels between host gathers and sums, against the same
  network written with plain array operations: equal results over the extended reals.

  The kernel program runs three pipelined regions. The first two each compute a graph layer on blocks of 5000 nodes: the
  node's features times one weight matrix, plus the node's summed neighbour features — scaled by a precomputed
  reciprocal of the in-degree clamped below by one — times another, plus a bias, the first layer rectified. The third
  scores blocks of 2000 candidate edges of two edge sets: the entry-by-entry product of the features at the edge's two
  ends through a three-layer perceptron. The gathers, the sums by destination node and the degree count are host
  operations between the regions, the same ones the reference applies.

  Read over the extended reals, a product into a zero accumulator is the plain sum of products whatever the blocking,
  and a change of float format is the identity; so each region's output array is the layer (the decoder) of the arrays
  it finds, row block by row block, and the ten (fifty) blocks cover the array. The reference divides the neighbour sum
  by the clamped degree where the kernel multiplies by its reciprocal: the two agree for every extended real numerator
  because the clamped degree is at least one, hence not zero. Nothing else differs, and no finiteness of the inputs is
  used.

  The frames of the two kernel programs are the generated ones; the reference's frame is its generated run; the ideal
  pass rewrote nothing, so there is nothing to preserve.
-/
import proofs.«106459_j24257975287900_2_alg».proof.Defs
import proofs.«106459_j24257975287900_2_alg».proof.Proof.Gen.Kernel
import proofs.«106459_j24257975287900_2_alg».proof.Proof.Gen.Kernel.Skeleton
import proofs.«106459_j24257975287900_2_alg».proof.Proof.Gen.Kernel.Launch
import proofs.«106459_j24257975287900_2_alg».proof.Proof.Gen.Kernel.Points
import proofs.«106459_j24257975287900_2_alg».proof.Proof.Gen.Kernel.Frame
import proofs.«106459_j24257975287900_2_alg».proof.Proof.Gen.KernelIdeal
import proofs.«106459_j24257975287900_2_alg».proof.Proof.Gen.KernelIdeal.Skeleton
import proofs.«106459_j24257975287900_2_alg».proof.Proof.Gen.KernelIdeal.Launch
import proofs.«106459_j24257975287900_2_alg».proof.Proof.Gen.KernelIdeal.Points
import proofs.«106459_j24257975287900_2_alg».proof.Proof.Gen.KernelIdeal.Frame
import proofs.«106459_j24257975287900_2_alg».proof.Proof.Gen.ReferenceIdeal
import proofs.«106459_j24257975287900_2_alg».proof.Proof.Gen.Pre_finite_inputs
import proofs.«106459_j24257975287900_2_alg».proof.Proof.Gen.ReferenceIdeal.Run
import proofs.«106459_j24257975287900_2_alg».proof.Proof.Gen.ReferenceIdeal.Read
import proofs.«106459_j24257975287900_2_alg».proof.Proof.KernelRun
import proofs.«106459_j24257975287900_2_alg».proof.Proof.KGlue
import proofs.«106459_j24257975287900_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The scores of the positive candidate edges, as the model's function of the kernel program's argument arrays. -/
def scoresPos (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v64_0) :=
  Cert.Sage.score (Cert.Sage.hidden2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))

/-- The scores of the negative candidate edges. -/
def scoresNeg (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v64_1) :=
  Cert.Sage.score (Cert.Sage.hidden2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The kernel program's run ends with its two results at the model's scores and its arguments as launched. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v64_0) = scoresPos m c
      ∧ r.2.mem ((c.tc : Thread Cert.KernelIdeal.nD Cert.KernelIdeal.τ).loc Cert.KernelIdeal.main_v64_1) = scoresNeg m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run Cert.KernelIdeal.defs _ _).mono
    (fun r h c => ⟨(h c).1.trans (Cert.Sage.KGlue.result_pos m ρ c), (h c).2.1.trans (Cert.Sage.KGlue.result_neg m ρ c), (h c).2.2⟩)
    (Cert.Sage.KRun.run_named (F := Ideal) m ρ)

/-- Both programs end with the model's scores of arguments that agree. -/
theorem algebraic : Cert.algebraic_KernelIdeal_ReferenceIdeal := by
  intro m ρ m' ρ' _ hagree
  refine ⟨scoresPos m, scoresNeg m, kernel_value m ρ, ?_⟩
  refine (θ_run Cert.ReferenceIdeal.defs _ _).mono (fun r h c => ⟨?_, ?_, (h c).2.2⟩)
    (Cert.ReferenceIdeal.Value.run (F := Ideal) m' ρ')
  · obtain ⟨e0, e1, e2, e3, e4, e5, e6, e7, e8, e9, e10, e11, e12, e13, e14, e15, e16, e17, e18⟩ := hagree c
    refine (h c).1.trans ((Cert.ReferenceIdeal.Read.val_main_v79_eq m' c).trans
      ((Cert.Sage.Ref.score_pos_eq _ _ _ _ _ _ _ _ _ _ _ _ _ _ _ _ _).trans ?_))
    rw [e0, e1, e2, e3, e4, e7, e8, e9, e10, e11, e12, e13, e14, e15, e16, e17, e18]
    rfl
  · obtain ⟨e0, e1, e2, e3, e4, e5, e6, e7, e8, e9, e10, e11, e12, e13, e14, e15, e16, e17, e18⟩ := hagree c
    refine (h c).2.1.trans ((Cert.ReferenceIdeal.Read.val_main_v108_eq m' c).trans
      ((Cert.Sage.Ref.score_neg_eq _ _ _ _ _ _ _ _ _ _ _ _ _ _ _ _ _).trans ?_))
    rw [e0, e1, e2, e5, e6, e7, e8, e9, e10, e11, e12, e13, e14, e15, e16, e17, e18]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
